-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x10000x10000 : Shape := ⟨3, ![2, 10000, 10000]⟩
abbrev S128x16 : Shape := ⟨2, ![128, 16]⟩
abbrev S16 : Shape := ⟨1, ![16]⟩
abbrev S16x16 : Shape := ⟨2, ![16, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S2x10000x10000 : S_.BroadcastsInDim S2x10000x10000 (![] : Fin 0 → Fin S2x10000x10000.rank)
  reducesTo_S2x10000x10000_S_d0_1_2 : S2x10000x10000.ReducesTo [0, 1, 2] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part1 {F : FTy → Type} [FloatOps F] (main_arg4 : FVec F S16x16 .f32) (main_arg5 : FVec F S16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg4
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S10000x128 .f32) (main_arg1 : FVec F S2x10000x10000 .f32) (main_arg2 : FVec F S128x16 .f32) (main_arg3 : FVec F S16 .f32) (main_arg4 : FVec F S16x16 .f32) (main_arg5 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S2x10000x10000 .f32 := Host.absf main_arg1
  let main_cst_0 : FVec F S_ .f32 := constant S_ .f32 0x7F800000#32
  let main_v5 : FVec F S2x10000x10000 .f32 := broadcastInDim S2x10000x10000 ![] bcast_S_S2x10000x10000 main_cst_0
  let main_v6 : IVec S2x10000x10000 1 := cmpf .olt main_v4 main_v5
  let main_c_1 : IVec S_ 1 := constantI S_ 1 1#1
  let main_v7 : IVec S_ 1 := (fun x v => Host.reduce IntOp.andi x v reducesTo_S2x10000x10000_S_d0_1_2 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_v13 main_v16
-- ==== Kernel.lean ====
abbrev S10000x128 : Shape := ⟨2, ![10000, 128]⟩
abbrev S2x10000x10000 : Shape := ⟨3, ![2, 10000, 10000]⟩
abbrev S128x16 : Shape := ⟨2, ![128, 16]⟩
abbrev S16 : Shape := ⟨1, ![16]⟩
abbrev S16x16 : Shape := ⟨2, ![16, 16]⟩
abbrev S1x16 : Shape := ⟨2, ![1, 16]⟩
abbrev S10000x16 : Shape := ⟨2, ![10000, 16]⟩
abbrev S1x400x10000 : Shape := ⟨3, ![1, 400, 10000]⟩
abbrev S400x16 : Shape := ⟨2, ![400, 16]⟩
abbrev S400x10000 : Shape := ⟨2, ![400, 10000]⟩
abbrev S400 : Shape := ⟨1, ![400]⟩
abbrev S400x1 : Shape := ⟨2, ![400, 1]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S2x10000x10000, .f32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S1x16, .f32⟩
  | .hbm, ⟨7, _⟩ => ⟨S1x16, .f32⟩
  | .hbm, ⟨8, _⟩ => ⟨S10000x16, .f32⟩
  | .local _ .vmem, ⟨0, _⟩ => ⟨S1x400x10000, .f32⟩
  | .local _ .vmem, ⟨1, _⟩ => ⟨S1x400x10000, .f32⟩
  | .local _ .vmem, ⟨2, _⟩ => ⟨S10000x128, .f32⟩
  | .local _ .vmem, ⟨3, _⟩ => ⟨S128x16, .f32⟩
  | .local _ .vmem, ⟨4, _⟩ => ⟨S1x16, .f32⟩
  | .local _ .vmem, ⟨5, _⟩ => ⟨S16x16, .f32⟩
  | .local _ .vmem, ⟨6, _⟩ => ⟨S1x16, .f32⟩
  | .local _ .vmem, ⟨7, _⟩ => ⟨S400x16, .f32⟩
  | .local _ .vmem, ⟨8, _⟩ => ⟨S400x16, .f32⟩
  | .local _ .vmem, ⟨9, _⟩ => ⟨S10000x16, .f32⟩
  | .local _ .vmem, ⟨10, _⟩ => ⟨S10000x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v23 : BitVec 32 := Scalar.muli arg1 c400_i32
  let v24 : Index := Scalar.indexCast v23
  let c0_15 : Index := 0#32
  ![v24.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage0_0 : Fin 2 → Memref sig .tc .vmem S1x400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S400x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x400x10000_S1x400x10000_0_0_0 : ∀ a, (![0, 0, 0] : Fin 3 → Nat) a + S1x400x10000.size a ≤ S1x400x10000.size a
  h_S1x400x10000 : 0 < S1x400x10000.numel
  shapeCasts_S1x400x10000_S400x10000 : S1x400x10000.ShapeCasts S400x10000
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  inb_S16x16_S16x16_0_0 : ∀ a, (![0, 0] : Fin 2 → Nat) a + S16x16.size a ≤ S16x16.size a
  h_S16x16 : 0 < S16x16.numel
  h_S400x16 : 0 < S400x16.numel
  shapeCasts_S400x16_S400x16 : S400x16.ShapeCasts S400x16
  reduces_S400x16_S400 : S400x16.Reduces [1] S400
  shapeCasts_S400_S400x1 : S400.ShapeCasts S400x1
  broadcasts_S400x1_S400x16 : S400x1.Broadcasts S400x16
  inb_S400x16_S400x16_0_0 : ∀ a, (![0, 0] : Fin 2 → Nat) a + S400x16.size a ≤ S400x16.size a
  dot_S10000x128_S128x16_S10000x16_1_0_0_1_n_n_wf : DotDims.WF S10000x128 S128x16 S10000x16 [1] [0] [0] [1] [] []
  dot_S400x10000_S10000x16_S400x16_1_0_0_1_n_n_wf : DotDims.WF S400x10000 S10000x16 S400x16 [1] [0] [0] [1] [] []
  dot_S400x16_S16x16_S400x16_1_0_0_1_n_n_wf : DotDims.WF S400x16 S16x16 S400x16 [1] [0] [0] [1] [] []
  hrank0 : 0 < grid0.rank
  k0_off1_inb : ∀ i : grid0.Coords, ∀ (k0_h2 : k0_cond2 i = 1#1), ∀ a, (k0_off1 i) a + S400x16.size a ≤ S10000x16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x400x10000.size a ≤ S2x10000x10000.size a
  hwx0_0 : ∀ i : grid0.Coords, EltTy.bits .f32 = 32 ∨ (Rect.block (s := S2x10000x10000) S1x400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S128x16.size a
  hwx0_2 : ∀ i : grid0.Coords, EltTy.bits .f32 = 32 ∨ (Rect.block (s := S128x16) S128x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x16.size a ≤ S16x16.size a
  hwx0_4 : ∀ i : grid0.Coords, EltTy.bits .f32 = 32 ∨ (Rect.block (s := S16x16) S16x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x16.size a ≤ S10000x16.size a
  hwx0_6 : ∀ i : grid0.Coords, EltTy.bits .f32 = 32 ∨ (Rect.block (s := S10000x16) S400x16.size (cc0_transform_6 i) (hinb0_6 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf
def dot_S400x16_S16x16_S400x16_1_0_0_1_n_n : DotDims S400x16 S16x16 S400x16 where
  lhsContracting := [1]
  rhsContracting := [0]
  lhsNonContracting := [0]
  rhsNonContracting := [1]
  lhsBatch := []
  rhsBatch := []
  wf := dot_S400x16_S16x16_S400x16_1_0_0_1_n_n_wf

abbrev win0_0 : Pipeline.Window sig grid0 :=
  Pipeline.Window.ofSpec (Memref.whole main_arg1) S1x400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S400x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S2x10000x10000 : Shape := ⟨3, ![2, 10000, 10000]⟩
abbrev S128x16 : Shape := ⟨2, ![128, 16]⟩
abbrev S16 : Shape := ⟨1, ![16]⟩
abbrev S16x16 : Shape := ⟨2, ![16, 16]⟩
abbrev S10000x16 : Shape := ⟨2, ![10000, 16]⟩
abbrev S1x10000x10000 : Shape := ⟨3, ![1, 10000, 10000]⟩
abbrev S10000x10000 : Shape := ⟨2, ![10000, 10000]⟩
abbrev S1x16 : Shape := ⟨2, ![1, 16]⟩
abbrev S_ : Shape := ⟨0, ![]⟩
abbrev S10000 : Shape := ⟨1, ![10000]⟩
abbrev S10000x1 : Shape := ⟨2, ![10000, 1]⟩

abbrev nBuf : Space → Nat
  | .hbm => 38
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x10000x10000, .f32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S10000x16, .f32⟩
  | .hbm, ⟨7, _⟩ => ⟨S1x10000x10000, .f32⟩
  | .hbm, ⟨8, _⟩ => ⟨S10000x10000, .f32⟩
  | .hbm, ⟨9, _⟩ => ⟨S10000x16, .f32⟩
  | .hbm, ⟨10, _⟩ => ⟨S1x16, .f32⟩
  | .hbm, ⟨11, _⟩ => ⟨S10000x16, .f32⟩
  | .hbm, ⟨12, _⟩ => ⟨S10000x16, .f32⟩
  | .hbm, ⟨13, _⟩ => ⟨S_, .f32⟩
  | .hbm, ⟨14, _⟩ => ⟨S10000x16, .f32⟩
  | .hbm, ⟨15, _⟩ => ⟨S10000x16, .f32⟩
  | .hbm, ⟨16, _⟩ => ⟨S10000x16, .f32⟩
  | .hbm, ⟨17, _⟩ => ⟨S1x10000x10000, .f32⟩
  | .hbm, ⟨18, _⟩ => ⟨S10000x10000, .f32⟩
  | .hbm, ⟨19, _⟩ => ⟨S10000x16, .f32⟩
  | .hbm, ⟨20, _⟩ => ⟨S1x16, .f32⟩
  | .hbm, ⟨21, _⟩ => ⟨S10000x16, .f32⟩
  | .hbm, ⟨22, _⟩ => ⟨S10000x16, .f32⟩
  | .hbm, ⟨23, _⟩ => ⟨S_, .f32⟩
  | .hbm, ⟨24, _⟩ => ⟨S10000, .f32⟩
  | .hbm, ⟨25, _⟩ => ⟨S_, .f32⟩
  | .hbm, ⟨26, _⟩ => ⟨S10000, .f32⟩
  | .hbm, ⟨27, _⟩ => ⟨S10000, .f32⟩
  | .hbm, ⟨28, _⟩ => ⟨S10000x1, .f32⟩
  | .hbm, ⟨29, _⟩ => ⟨S10000x16, .f32⟩
  | .hbm, ⟨30, _⟩ => ⟨S10000x16, .f32⟩
  | .hbm, ⟨31, _⟩ => ⟨S10000x16, .f32⟩
  | .hbm, ⟨32, _⟩ => ⟨S_, .f32⟩
  | .hbm, ⟨33, _⟩ => ⟨S10000, .f32⟩
  | .hbm, ⟨34, _⟩ => ⟨S10000x1, .f32⟩
  | .hbm, ⟨35, _⟩ => ⟨S10000x1, .f32⟩
  | .hbm, ⟨36, _⟩ => ⟨S10000x16, .f32⟩
  | .hbm, ⟨37, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_call0_cst_0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_cst_1 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_v16 : Ref sig .tc := ⟨.hbm, 37, rfl⟩

abbrev nD : Nat := 1
abbrev τ : Topo := Topo.v7x

variable {F : FTy → Type} [FloatOps F]

class Facts₀ : Prop where
  slices_S2x10000x10000_S1x10000x10000_0_0_0 : S2x10000x10000.Slices ![0, 0, 0] S1x10000x10000
  shapeCasts_S1x10000x10000_S10000x10000 : S1x10000x10000.ShapeCasts S10000x10000
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  slices_S2x10000x10000_S1x10000x10000_1_0_0 : S2x10000x10000.Slices ![1, 0, 0] S1x10000x10000
  reducesTo_S10000x16_S10000_d1 : S10000x16.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []
  dot_S10000x16_S16x16_S10000x16_1_0_0_1_n_n_wf : DotDims.WF S10000x16 S16x16 S10000x16 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf

class Facts : Prop extends Facts₀ where

variable [Facts]
-- ==== Proof.Kernel.Cases.lean ====
/-
  The two-layer graph convolution runs on a grid of 2 x 25 points, 50 in row-major order: points 0..24 are
  the first layer (point 0 also forms the product of the features with the first weight), points 25..49
  the second layer with the row-wise log-softmax. This module states, over the grid, which of the body's
  three conditionals fire at a point, where the output's staging buffer is left untouched and where it is
  written back, and names the staging and scratch buffers the body is called with.
-/
import proofs.«152889_g61306363183712_cont_9to1c4b_794_20_alg».proof.Proof.Gen.Kernel.Frame
import proofs.«152889_g61306363183712_cont_9to1c4b_794_20_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-! ## The three conditionals, over the grid -/

/-- The first conditional: both grid coordinates are zero. -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The second conditional: the first layer's half of the grid. -/
abbrev isLayer1 (i : grid0.Coords) : Prop := k0_cond2 i = 1#1
/-- The third conditional: the second layer's half of the grid. -/
abbrev isLayer2 (i : grid0.Coords) : Prop := k0_cond3 i = 1#1

theorem isFirst_iff : ∀ t : Fin cfg0.N, isFirst (grid0.coords t) ↔ t.val = 0 :=
  (by decide +kernel : ∀ t : Fin grid0.N, isFirst (grid0.coords t) ↔ t.val = 0)
theorem isLayer1_iff : ∀ t : Fin cfg0.N, isLayer1 (grid0.coords t) ↔ t.val < 25 :=
  (by decide +kernel : ∀ t : Fin grid0.N, isLayer1 (grid0.coords t) ↔ t.val < 25)
theorem isLayer2_iff : ∀ t : Fin cfg0.N, isLayer2 (grid0.coords t) ↔ 25 ≤ t.val :=
  (by decide +kernel : ∀ t : Fin grid0.N, isLayer2 (grid0.coords t) ↔ 25 ≤ t.val)

/-- The row the first layer's slice store starts at: 400 times the point's position in its half. -/
theorem off_eq : ∀ t : Fin cfg0.N, t.val < 25 → k0_off1 (grid0.coords t) = ![400 * t.val, 0] :=
  (by decide +kernel : ∀ t : Fin grid0.N, t.val < 25 → k0_off1 (grid0.coords t) = ![400 * t.val, 0])

/-! ## Where the windows are idle, and where the output is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The output's buffer is untouched exactly in the first layer's half. -/
theorem idle6_iff : ∀ t : Fin cfg0.N, cfg0.idle 6 (grid0.coords t) = true ↔ t.val < 25 :=
  (by decide +kernel : ∀ t : Fin grid0.N, cfg0.idle 6 (grid0.coords t) = true ↔ t.val < 25)
/-- The output's block index is 0 through the first half and at point 25, then the point's position in the
    second half: the buffer is written back exactly at the points of the second half. -/
theorem flush6_iff : ∀ t : Fin cfg0.N, (cfg0.win 6).flush t = true ↔ 25 ≤ t.val :=
  (by decide +kernel : ∀ t : Fin grid0.N, win0_6.flush t = true ↔ 25 ≤ t.val)
/-- The output block written back at a point of the second half is the block of that position. -/
theorem index6 : ∀ t : Fin cfg0.N, 25 ≤ t.val → ∀ a : Fin 2, win0_6.index t a = ![t.val - 25, 0] a :=
  (by decide +kernel : ∀ t : Fin grid0.N, 25 ≤ t.val → ∀ a : Fin 2, win0_6.index t a = ![t.val - 25, 0] a)

/-! ## The buffers the body is called with -/

abbrev sm0 (t : Fin cfg0.N) : Memref sig .tc .vmem S1x400x10000 .f32 := win0_0.stage (cfg0.slots t 0)
abbrev hm0 (t : Fin cfg0.N) : (sm0 t).IsWhole := hstage0_0 ((cfg0.slots t 0).cast nbuf0_0)
abbrev sm1 (t : Fin cfg0.N) : Memref sig .tc .vmem S10000x128 .f32 := win0_1.stage (cfg0.slots t 1)
abbrev hm1 (t : Fin cfg0.N) : (sm1 t).IsWhole := hstage0_1 ((cfg0.slots t 1).cast nbuf0_1)
abbrev sm2 (t : Fin cfg0.N) : Memref sig .tc .vmem S128x16 .f32 := win0_2.stage (cfg0.slots t 2)
abbrev hm2 (t : Fin cfg0.N) : (sm2 t).IsWhole := hstage0_2 ((cfg0.slots t 2).cast nbuf0_2)
abbrev sm3 (t : Fin cfg0.N) : Memref sig .tc .vmem S1x16 .f32 := win0_3.stage (cfg0.slots t 3)
abbrev hm3 (t : Fin cfg0.N) : (sm3 t).IsWhole := hstage0_3 ((cfg0.slots t 3).cast nbuf0_3)
abbrev sm4 (t : Fin cfg0.N) : Memref sig .tc .vmem S16x16 .f32 := win0_4.stage (cfg0.slots t 4)
abbrev hm4 (t : Fin cfg0.N) : (sm4 t).IsWhole := hstage0_4 ((cfg0.slots t 4).cast nbuf0_4)
abbrev sm5 (t : Fin cfg0.N) : Memref sig .tc .vmem S1x16 .f32 := win0_5.stage (cfg0.slots t 5)
abbrev hm5 (t : Fin cfg0.N) : (sm5 t).IsWhole := hstage0_5 ((cfg0.slots t 5).cast nbuf0_5)
abbrev sm6 (t : Fin cfg0.N) : Memref sig .tc .vmem S400x16 .f32 := win0_6.stage (cfg0.slots t 6)
abbrev hm6 (t : Fin cfg0.N) : (sm6 t).IsWhole := hstage0_6 ((cfg0.slots t 6).cast nbuf0_6)
/-- The two scratch buffers: the product of the features with the first weight, and the first layer's result. -/
abbrev scA : Memref sig .tc .vmem S10000x16 .f32 := Memref.whole cc0_scratch0
abbrev scB : Memref sig .tc .vmem S10000x16 .f32 := Memref.whole cc0_scratch1

/-- What the region hands the body before the first point: both scratch buffers at some contents, and the
    generator register. -/
theorem PhiA_eq (c : Dev nD) :
    (Pipeline.ΦA spec0 c : sProp 𝕄)
      = iprop(iprop((∃ d, owns (c : Thread nD τ) scA fullShare d) ∗ (∃ d, owns (c : Thread nD τ) scB fullShare d)) ∗ (∃ r, prngReg c r)) := by
  unfold Pipeline.ΦA; rw [scopedRest0_eq]; simp only [scA, scB, owns_whole]; try rfl

end Cert.Kernel.Hand

end
-- ==== Proof.LibRowStore.lean ====
/-
  Reading a buffer back after one store, for any values.

  * A store through the whole-shape rectangle at zero offsets leaves its payload: the buffer then reads as
    the payload, whatever it held.
  * A rank-2 buffer of `R` rows and `C` columns, held whole at contents `old`, after one store of a block of
    `W` whole rows starting at row `o`, reads the block at (row - o, column) on rows o ≤ row < o + W and
    `old` on every other row.
-/
import Idealize.ShloMosaic.Lib.WritesUnit
import Idealize.ShloMosaic.Lib.Pipeline.Value
import Idealize.ShloMosaic.Lib.Pipeline.Frame
import Idealize.ShloMosaic.Lib.ValueIdx

noncomputable section

namespace Idealize.ShloMosaic.RowStore

open Idealize.ShloMosaic Idealize.ShloMosaic.ValueIdx

variable {sig : RefSig} {κ : Kind} {sp : Space} {e : EltTy} {Val : EltTy → Type}

/-- One store through the whole-shape rectangle at zero offsets (however the zeros are spelt) reads back as
    its payload. -/
theorem read_writes_unit_zero {S : Shape} (v : View sig κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w := by
  subst h
  exact View.read_writes_whole v f w

variable {R C W : Nat}

/-- A buffer of `R` rows held whole at `old`, after a block of `W` whole rows is stored at offsets `off`. -/
def putRows (M : Memref sig κ sp (⟨2, ![R, C]⟩ : Shape) e) (hM : M.IsWhole) (off : Fin 2 → Nat)
    (inb : ∀ a : Fin 2, off a + (![W, C] : Fin 2 → Nat) a ≤ (![R, C] : Fin 2 → Nat) a)
    (old : (⟨2, ![R, C]⟩ : Shape).Idx → Val e) (blk : (⟨2, ![W, C]⟩ : Shape).Idx → Val e) :
    (⟨2, ![R, C]⟩ : Shape).Idx → Val e :=
  M.view.read Val (M.view.writes Val (hM.unread old)
    [(⟨Rect.unit (s := (⟨2, ![R, C]⟩ : Shape)) off (![W, C] : Fin 2 → Nat) inb, blk⟩ : View.Piece Val (⟨2, ![R, C]⟩ : Shape) e)])

/-- On the stored rows the buffer reads the block. -/
theorem putRows_inside (M : Memref sig κ sp (⟨2, ![R, C]⟩ : Shape) e) (hM : M.IsWhole) (off : Fin 2 → Nat)
    (inb : ∀ a : Fin 2, off a + (![W, C] : Fin 2 → Nat) a ≤ (![R, C] : Fin 2 → Nat) a)
    (old : (⟨2, ![R, C]⟩ : Shape).Idx → Val e) (blk : (⟨2, ![W, C]⟩ : Shape).Idx → Val e)
    (o : Nat) (hoff : off = ![o, 0]) (y : (⟨2, ![R, C]⟩ : Shape).Idx) (r : Fin W) (q : Fin C)
    (h0 : (y 0).val = o + r.val) (h1 : (y 1).val = q.val) :
    putRows M hM off inb old blk y = blk (ix2 r q) :=
  View.read_writes_cons_rows_of_mem M.view (hM.unread old) inb blk [] y (ix2 r q) hoff h0 h1

/-- On every other row it reads what it held. -/
theorem putRows_outside (M : Memref sig κ sp (⟨2, ![R, C]⟩ : Shape) e) (hM : M.IsWhole) (off : Fin 2 → Nat)
    (inb : ∀ a : Fin 2, off a + (![W, C] : Fin 2 → Nat) a ≤ (![R, C] : Fin 2 → Nat) a)
    (old : (⟨2, ![R, C]⟩ : Shape).Idx → Val e) (blk : (⟨2, ![W, C]⟩ : Shape).Idx → Val e)
    (o : Nat) (hoff : off = ![o, 0]) (y : (⟨2, ![R, C]⟩ : Shape).Idx)
    (h : (y 0).val < o ∨ o + W ≤ (y 0).val) :
    putRows M hM off inb old blk y = old y := by
  unfold putRows
  rw [View.read_writes_cons_rows_of_not_mem M.view (hM.unread old) inb blk [] y hoff (rfl : (![W, C] : Fin 2 → Nat) 0 = W) h]
  exact congrFun (hM.read_unread old) y

end Idealize.ShloMosaic.RowStore

end
-- ==== Proof.Kernel.Contents.lean ====
/-
  What the body carries from point to point, as functions of the input blocks the region stages.

  `featW1` is the product of the features with the first weight, formed at the first point. `layer1` is
  the first layer's result, all 10000 rows of it: row r is computed at point r / 400, from that point's
  adjacency block, `featW1`, the first bias and the second weight, at local row r % 400. `outAt t` is the
  output block of a point of the second half: the row-wise log-softmax of (adjacency block) x `layer1` + second
  bias. The second scratch buffer is filled 400 rows per point, so after n points it AGREES with `layer1`
  on its first 400 n rows; after 25 points it is `layer1`.
-/
import proofs.«152889_g61306363183712_cont_9to1c4b_794_20_alg».proof.Proof.Kernel.Cases
import proofs.«152889_g61306363183712_cont_9to1c4b_794_20_alg».proof.Proof.LibRowStore

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen Idealize.ShloMosaic.ValueIdx

variable {F : FTy → Type} [FloatOps F]

variable (m : (ℓ : Loc nD τ sig) → Buf (Elt F) ℓ)

theorem N_eq : cfg0.N = 50 := N_0

/-- The first point. -/
def pt0 : Fin cfg0.N := ⟨0, by rw [N_eq]; omega⟩

/-- Each input's block at a point, at its literal shape. -/
def adjAt (c : Dev nD) (t : Fin cfg0.N) : Vec F S1x400x10000 .f32 := iblk m c 0 t
def featAt (c : Dev nD) (t : Fin cfg0.N) : Vec F S10000x128 .f32 := iblk m c 1 t
def w1At (c : Dev nD) (t : Fin cfg0.N) : Vec F S128x16 .f32 := iblk m c 2 t
def b1At (c : Dev nD) (t : Fin cfg0.N) : Vec F S1x16 .f32 := iblk m c 3 t
def w2At (c : Dev nD) (t : Fin cfg0.N) : Vec F S16x16 .f32 := iblk m c 4 t
def b2At (c : Dev nD) (t : Fin cfg0.N) : Vec F S1x16 .f32 := iblk m c 5 t

/-- The point that computes row `y 0` of the first layer's result, and the row's position in that point's block. -/
def rowPoint (y : S10000x16.Idx) : Fin cfg0.N :=
  ⟨(y 0).val / 400, by rw [N_eq]; have := idx2_lt0 y; omega⟩
def rowLocal (y : S10000x16.Idx) : S400x16.Idx :=
  ix2 (⟨(y 0).val % 400, Nat.mod_lt _ (by norm_num)⟩ : Fin 400) (⟨(y 1).val, idx2_lt1 y⟩ : Fin 16)

/-- The features times the first weight. -/
def featW1 (c : Dev nD) : Vec F S10000x16 .f32 := k0_pay1 (featAt m c pt0) (w1At m c pt0)

/-- The first layer's result, row by row. -/
def layer1 (c : Dev nD) : Vec F S10000x16 .f32 := fun y =>
  k0_pay2 (adjAt m c (rowPoint y)) (featW1 m c) (b1At m c (rowPoint y)) (w2At m c (rowPoint y)) (rowLocal y)

/-- The output block of point `t`. -/
def outAt (c : Dev nD) (t : Fin cfg0.N) : Vec F S400x16 .f32 := k0_pay3 (adjAt m c t) (layer1 m c) (b2At m c t)

/-- `d` agrees with `g` on the first `400 n` rows. -/
def AgreesTo (n : ℕ) (d g : Vec F S10000x16 .f32) : Prop := ∀ y : S10000x16.Idx, (y 0).val < 400 * n → d y = g y

theorem AgreesTo.all {n : ℕ} {d g : Vec F S10000x16 .f32} (h : AgreesTo n d g) (hn : 25 ≤ n) : d = g :=
  funext fun y => h y (by have := idx2_lt0 y; omega)

theorem AgreesTo.of_eq {n : ℕ} {d g : Vec F S10000x16 .f32} (h : d = g) : AgreesTo n d g := fun y _ => congrFun h y

/-- Storing point `t`'s block into its 400 rows extends the agreement by those rows. -/
theorem AgreesTo.step (c : Dev nD) (t : Fin cfg0.N) (ht : t.val < 25)
    (M : Memref sig .tc .vmem S10000x16 .f32) (hM : M.IsWhole) (off : Fin 2 → ℕ)
    (inb : ∀ a : Fin 2, off a + (![400, 16] : Fin 2 → ℕ) a ≤ (![10000, 16] : Fin 2 → ℕ) a) (hoff : off = ![400 * t.val, 0])
    (d : Vec F S10000x16 .f32) (h : AgreesTo t.val d (layer1 m c)) :
    AgreesTo (t.val + 1)
      (RowStore.putRows (R := 10000) (C := 16) (W := 400) M hM off inb d
        (k0_pay2 (adjAt m c t) (featW1 m c) (b1At m c t) (w2At m c t))) (layer1 m c) := by
  intro y hy
  by_cases hin : 400 * t.val ≤ (y 0).val
  · have hr : (y 0).val - 400 * t.val < 400 := by omega
    rw [RowStore.putRows_inside M hM off inb d _ (400 * t.val) hoff y ⟨(y 0).val - 400 * t.val, hr⟩ ⟨(y 1).val, idx2_lt1 y⟩
      (by show (y 0).val = 400 * t.val + ((y 0).val - 400 * t.val); omega) rfl]
    have hp : rowPoint y = t := Fin.ext (by show (y 0).val / 400 = t.val; omega)
    have hl : rowLocal y = ix2 (⟨(y 0).val - 400 * t.val, hr⟩ : Fin 400) (⟨(y 1).val, idx2_lt1 y⟩ : Fin 16) := by
      unfold rowLocal
      congr 1
      exact Fin.ext (by show (y 0).val % 400 = (y 0).val - 400 * t.val; omega)
    show _ = k0_pay2 (adjAt m c (rowPoint y)) (featW1 m c) (b1At m c (rowPoint y)) (w2At m c (rowPoint y)) (rowLocal y)
    rw [hp, hl]
  · rw [RowStore.putRows_outside M hM off inb d _ (400 * t.val) hoff y (Or.inl (by omega))]
    exact h y (by omega)

end Cert.Kernel.Hand

end
-- ==== Proof.Kernel.RunA.lean ====
/-
  The body at the first point: it stores the product of the features with the first weight into the first
  scratch buffer (whole), then, reading that product back, stores the first block of the first layer's
  result into rows 0..399 of the second scratch buffer; the output's staging buffer is not touched.
-/
import proofs.«152889_g61306363183712_cont_9to1c4b_794_20_alg».proof.Proof.Kernel.Cases
import proofs.«152889_g61306363183712_cont_9to1c4b_794_20_alg».proof.Proof.LibRowStore

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
theorem runA (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole) (hc0 : isFirst i) (hc1 : isLayer1 i) (hc2 : ¬isLayer2 i)
    (x0 : Vec F S1x400x10000 .f32) (x1 : Vec F S10000x128 .f32) (x2 : Vec F S128x16 .f32) (x3 : Vec F S1x16 .f32) (x4 : Vec F S16x16 .f32) (x5 : Vec F S1x16 .f32) (x6 : Vec F S400x16 .f32) (xb : Vec F S10000x16 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xb
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay1 x1 x2)
            ∗ owns (c : Thread nD τ) arg10 fullShare (RowStore.putRows (R := 10000) (C := 16) (W := 400) arg10 harg10 (k0_off1 i) (k0_off1_inb i hc1) xb (k0_pay2 x0 (k0_pay1 x1 x2) x3 x4))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%da, %fa, -, HA⟩, ⟨%fb, %hfb, HB⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfb
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HA]
  · iexists _; isplitr; swap; · iexact HA
    ipureintro
    have hz2 : (![0, 0] : Fin 2 → ℕ) = fun _ => 0 := by funext a; fin_cases a <;> rfl
    sl_unfold_run_names
    rw [RowStore.read_writes_unit_zero _ _ hz2]
    simp only [View.readAt_eq_ld, harg3.read_unread, harg4.read_unread,
      View.ld_unit_zero (S := S10000x128) hz2, View.ld_unit_zero (S := S128x16) hz2]
  iexists _; isplitr; swap; · iexact HB
  ipureintro
  have hz2 : (![0, 0] : Fin 2 → ℕ) = fun _ => 0 := by funext a; fin_cases a <;> rfl
  have hz3 : (![0, 0, 0] : Fin 3 → ℕ) = fun _ => 0 := by funext a; fin_cases a <;> rfl
  sl_unfold_run_names
  unfold RowStore.putRows
  rw [View.readCov_unit_zero arg9.view hz2]
  simp only [View.readAt_eq_ld, harg2.read_unread, harg3.read_unread, harg4.read_unread, harg5.read_unread, harg6.read_unread,
    View.ld_unit_zero (S := S1x400x10000) hz3, View.ld_unit_zero (S := S10000x128) hz2, View.ld_unit_zero (S := S128x16) hz2,
    View.ld_unit_zero (S := S1x16) hz2, View.ld_unit_zero (S := S16x16) hz2]

end Cert.Kernel.Hand

end
-- ==== Proof.Kernel.RunB.lean ====
/-
  The body at a later point of the first layer's half: it reads the first scratch buffer, stores this
  point's block of the first layer's result into its 400 rows of the second scratch buffer and leaves the
  rest of that buffer, the first scratch buffer and the output's staging buffer as they were.
-/
import proofs.«152889_g61306363183712_cont_9to1c4b_794_20_alg».proof.Proof.Kernel.Cases
import proofs.«152889_g61306363183712_cont_9to1c4b_794_20_alg».proof.Proof.LibRowStore

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
theorem runB (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole) (hc0 : ¬isFirst i) (hc1 : isLayer1 i) (hc2 : ¬isLayer2 i)
    (x0 : Vec F S1x400x10000 .f32) (x1 : Vec F S10000x128 .f32) (x2 : Vec F S128x16 .f32) (x3 : Vec F S1x16 .f32) (x4 : Vec F S16x16 .f32) (x5 : Vec F S1x16 .f32) (x6 : Vec F S400x16 .f32) (xa xb : Vec F S10000x16 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xa ∗ owns (c : Thread nD τ) arg10 fullShare xb
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xa
            ∗ owns (c : Thread nD τ) arg10 fullShare (RowStore.putRows (R := 10000) (C := 16) (W := 400) arg10 harg10 (k0_off1 i) (k0_off1_inb i hc1) xb (k0_pay2 x0 xa x3 x4))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fa, %hfa, HA⟩, ⟨%fb, %hfb, HB⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfa; obtain rfl := harg10.eq_unread hfb
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HA]
  · iexists _; isplitr; swap; · iexact HA
    ipureintro
    exact harg9.read_unread _
  iexists _; isplitr; swap; · iexact HB
  ipureintro
  have hz2 : (![0, 0] : Fin 2 → ℕ) = fun _ => 0 := by funext a; fin_cases a <;> rfl
  have hz3 : (![0, 0, 0] : Fin 3 → ℕ) = fun _ => 0 := by funext a; fin_cases a <;> rfl
  unfold RowStore.putRows
  simp only [View.readAt_eq_ld, harg2.read_unread, harg9.read_unread, harg5.read_unread, harg6.read_unread,
    View.ld_unit_zero (S := S1x400x10000) hz3, View.ld_unit_zero (S := S10000x16) hz2, View.ld_unit_zero (S := S1x16) hz2,
    View.ld_unit_zero (S := S16x16) hz2]

end Cert.Kernel.Hand

end
-- ==== Proof.Kernel.RunC.lean ====
/-
  The body at a point of the second layer's half: it stores nothing into either scratch buffer, and leaves
  in the output's staging buffer the block's row-wise log-softmax of (adjacency block) x (first layer's
  result) + bias, a function of the adjacency block, the whole second scratch buffer and the bias row.
-/
import proofs.«152889_g61306363183712_cont_9to1c4b_794_20_alg».proof.Proof.Kernel.Cases
import proofs.«152889_g61306363183712_cont_9to1c4b_794_20_alg».proof.Proof.LibRowStore

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
theorem runC (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole) (hc0 : ¬isFirst i) (hc1 : ¬isLayer1 i) (hc2 : isLayer2 i)
    (x0 : Vec F S1x400x10000 .f32) (x1 : Vec F S10000x128 .f32) (x2 : Vec F S128x16 .f32) (x3 : Vec F S1x16 .f32) (x4 : Vec F S16x16 .f32) (x5 : Vec F S1x16 .f32) (xa xb : Vec F S10000x16 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xa ∗ owns (c : Thread nD τ) arg10 fullShare xb
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay3 x0 xb x5) ∗ owns (c : Thread nD τ) arg9 fullShare xa ∗ owns (c : Thread nD τ) arg10 fullShare xb) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fa, %hfa, HA⟩, ⟨%fb, %hfb, HB⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfa; obtain rfl := harg10.eq_unread hfb
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    have hz2 : (![0, 0] : Fin 2 → ℕ) = fun _ => 0 := by funext a; fin_cases a <;> rfl
    have hz3 : (![0, 0, 0] : Fin 3 → ℕ) = fun _ => 0 := by funext a; fin_cases a <;> rfl
    rw [RowStore.read_writes_unit_zero _ _ hz2]
    simp only [View.readAt_eq_ld, harg2.read_unread, harg10.read_unread, harg7.read_unread,
      View.ld_unit_zero (S := S1x400x10000) hz3, View.ld_unit_zero (S := S10000x16) hz2, View.ld_unit_zero (S := S1x16) hz2]
  isplitl [HA]
  · iexists _; isplitr; · ipureintro; exact harg9.read_unread _
    iexact HA
  iexists _; isplitr; · ipureintro; exact harg10.read_unread _
  iexact HB

end Cert.Kernel.Hand

end
-- ==== Proof.Kernel.Frame.lean ====
/-
  The frame of the kernel's program, with what it leaves NAMED. Through the 50 points the body carries two
  scratch buffers: after any point the first holds the features times the first weight (`featW1`), and after
  point n - 1 the second agrees with the first layer's result (`layer1`) on its first 400 n rows. The output's
  staging buffer is left alone through the first half and, at a point of the second half, receives that
  point's block (`outAt`), which is then written back. Each input's buffer holds its block throughout.
-/
import proofs.«152889_g61306363183712_cont_9to1c4b_794_20_alg».proof.Proof.Kernel.Contents
import proofs.«152889_g61306363183712_cont_9to1c4b_794_20_alg».proof.Proof.Kernel.RunA
import proofs.«152889_g61306363183712_cont_9to1c4b_794_20_alg».proof.Proof.Kernel.RunB
import proofs.«152889_g61306363183712_cont_9to1c4b_794_20_alg».proof.Proof.Kernel.RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant -/

/-- Before point `n`: at the start what the region hands over (both scratch buffers at anything); later the
    first scratch buffer at `featW1` and the second at contents agreeing with `layer1` on the rows stored so far. -/
def Inv (c : Dev nD) : (n : ℕ) → n ≤ cfg0.N → sProp 𝕄
  | 0, _ => Pipeline.ΦA spec0 c
  | n + 1, _ => iprop(iprop(owns (c : Thread nD τ) scA fullShare (featW1 m c) ∗ (∃ d, ⌜AgreesTo (n + 1) d (layer1 m c)⌝ ∗ owns (c : Thread nD τ) scB fullShare d)) ∗ (∃ r, prngReg c r))

theorem Inv_zero (c : Dev nD) (n : ℕ) (h : n ≤ cfg0.N) (hz : n = 0) : Inv m c n h = Pipeline.ΦA spec0 c := by
  subst hz; rfl

theorem Inv_succ (c : Dev nD) (n : ℕ) (hn : n + 1 ≤ cfg0.N) :
    Inv m c (n + 1) hn = iprop(iprop(owns (c : Thread nD τ) scA fullShare (featW1 m c) ∗ (∃ d, ⌜AgreesTo (n + 1) d (layer1 m c)⌝ ∗ owns (c : Thread nD τ) scB fullShare d)) ∗ (∃ r, prngReg c r)) := rfl

theorem Inv_pos (c : Dev nD) (n : ℕ) (h : n ≤ cfg0.N) (hz : n ≠ 0) :
    Inv m c n h = iprop(iprop(owns (c : Thread nD τ) scA fullShare (featW1 m c) ∗ (∃ d, ⌜AgreesTo n d (layer1 m c)⌝ ∗ owns (c : Thread nD τ) scB fullShare d)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (sm0 t) fullShare ((dats m 0 c).before 0 t d))
    ∗ (∃ d, owns (c : Thread nD τ) (sm1 t) fullShare ((dats m 0 c).before 1 t d))
    ∗ (∃ d, owns (c : Thread nD τ) (sm2 t) fullShare ((dats m 0 c).before 2 t d))
    ∗ (∃ d, owns (c : Thread nD τ) (sm3 t) fullShare ((dats m 0 c).before 3 t d))
    ∗ (∃ d, owns (c : Thread nD τ) (sm4 t) fullShare ((dats m 0 c).before 4 t d))
    ∗ (∃ d, owns (c : Thread nD τ) (sm5 t) fullShare ((dats m 0 c).before 5 t d))
    ∗ (∃ d, owns (c : Thread nD τ) (sm6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point, by the half the point lies in (and, in the first half, whether it is the first). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = Inv m c (t.val + 1) t.isLt from rfl, Inv_succ]
  have hN : t.val < 50 := lt_of_lt_of_eq t.isLt N_eq
  rw [show (dats m 0 c).leavesExact 0 t = owns (c : Thread nD τ) (sm0 t) fullShare ((dats m 0 c).after 0 t) from by
    unfold Dat.leavesExact; rw [live0 t], after0]
  rw [show (dats m 0 c).leavesExact 1 t = owns (c : Thread nD τ) (sm1 t) fullShare ((dats m 0 c).after 1 t) from by
    unfold Dat.leavesExact; rw [live1 t], after1]
  rw [show (dats m 0 c).leavesExact 2 t = owns (c : Thread nD τ) (sm2 t) fullShare ((dats m 0 c).after 2 t) from by
    unfold Dat.leavesExact; rw [live2 t], after2]
  rw [show (dats m 0 c).leavesExact 3 t = owns (c : Thread nD τ) (sm3 t) fullShare ((dats m 0 c).after 3 t) from by
    unfold Dat.leavesExact; rw [live3 t], after3]
  rw [show (dats m 0 c).leavesExact 4 t = owns (c : Thread nD τ) (sm4 t) fullShare ((dats m 0 c).after 4 t) from by
    unfold Dat.leavesExact; rw [live4 t], after4]
  rw [show (dats m 0 c).leavesExact 5 t = owns (c : Thread nD τ) (sm5 t) fullShare ((dats m 0 c).after 5 t) from by
    unfold Dat.leavesExact; rw [live5 t], after5]
  by_cases h25 : t.val < 25
  · -- the first half: the output's buffer is handed back as found
    have hidle : cfg0.idle 6 (grid0.coords t) = true := (idle6_iff t).mpr h25
    have hfl : (cfg0.win 6).flush t = false := Bool.eq_false_iff.mpr fun h => by have := (flush6_iff t).mp h; omega
    rw [(dats m 0 c).leavesExact_idle 6 t hidle hfl]
    have hoff := off_eq t h25
    by_cases hz : t.val = 0
    · rw [Inv_castSucc m c t, Inv_zero m c _ _ hz, PhiA_eq]
      iintro ⟨⟨⟨HA, ⟨%db, HB⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runA c (grid0.coords t) (sm0 t) (hm0 t) (sm1 t) (hm1 t) (sm2 t) (hm2 t) (sm3 t) (hm3 t) (sm4 t) (hm4 t) (sm5 t) (hm5 t) (sm6 t) (hm6 t) scA (Memref.isWhole_whole _) scB (Memref.isWhole_whole _)
        ((isFirst_iff t).mpr hz) ((isLayer1_iff t).mpr h25) (fun h => by have := (isLayer2_iff t).mp h; omega)
        (iblk m c 0 t) (iblk m c 1 t) (iblk m c 2 t) (iblk m c 3 t) (iblk m c 4 t) (iblk m c 5 t) ((dats m 0 c).before 6 t d6) db Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HA]; · iexact HA
      isplitl [HB]; · iexact HB
      iintro ⟨H0, H1, H2, H3, H4, H5, H6, HA, HB⟩
      isplitl [HA HB Hg]
      · isplitl [HA HB]
        · isplitl [HA]
          · have ht0 : t = pt0 := Fin.ext hz
            rw [show featW1 m c = k0_pay1 (iblk m c 1 t) (iblk m c 2 t) from by rw [ht0]; rfl]
            iexact HA
          iexists _; isplitr; swap; · iexact HB
          ipureintro
          have hstep := AgreesTo.step m c t h25 scB (Memref.isWhole_whole _) (k0_off1 (grid0.coords t)) (k0_off1_inb (grid0.coords t) ((isLayer1_iff t).mpr h25)) hoff db
            (fun y hy => by rw [hz] at hy; omega)
          have ht0 : t = pt0 := Fin.ext hz
          rw [show featW1 m c = k0_pay1 (iblk m c 1 t) (iblk m c 2 t) from by rw [ht0]; rfl] at hstep
          exact hstep
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [Inv_castSucc m c t, Inv_pos m c _ _ hz]
      iintro ⟨⟨⟨HA, ⟨%db, %hdb, HB⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runB c (grid0.coords t) (sm0 t) (hm0 t) (sm1 t) (hm1 t) (sm2 t) (hm2 t) (sm3 t) (hm3 t) (sm4 t) (hm4 t) (sm5 t) (hm5 t) (sm6 t) (hm6 t) scA (Memref.isWhole_whole _) scB (Memref.isWhole_whole _)
        (fun h => hz ((isFirst_iff t).mp h)) ((isLayer1_iff t).mpr h25) (fun h => by have := (isLayer2_iff t).mp h; omega)
        (iblk m c 0 t) (iblk m c 1 t) (iblk m c 2 t) (iblk m c 3 t) (iblk m c 4 t) (iblk m c 5 t) ((dats m 0 c).before 6 t d6) (featW1 m c) db Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HA]; · iexact HA
      isplitl [HB]; · iexact HB
      iintro ⟨H0, H1, H2, H3, H4, H5, H6, HA, HB⟩
      isplitl [HA HB Hg]
      · isplitl [HA HB]
        · isplitl [HA]; · iexact HA
          iexists _; isplitr; swap; · iexact HB
          ipureintro
          exact AgreesTo.step m c t h25 scB (Memref.isWhole_whole _) (k0_off1 (grid0.coords t)) (k0_off1_inb (grid0.coords t) ((isLayer1_iff t).mpr h25)) hoff db hdb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · -- the second half: the output's buffer receives the point's block
    have h25' : 25 ≤ t.val := by omega
    have hz : t.val ≠ 0 := by omega
    have hlive : cfg0.idle 6 (grid0.coords t) = false := Bool.eq_false_iff.mpr fun h => by have := (idle6_iff t).mp h; omega
    rw [show (dats m 0 c).leavesExact 6 t = owns (c : Thread nD τ) (sm6 t) fullShare ((dats m 0 c).after 6 t) from by
      unfold Dat.leavesExact; rw [hlive], after6]
    rw [Inv_castSucc m c t, Inv_pos m c _ _ hz]
    iintro ⟨⟨⟨HA, ⟨%db, %hdb, HB⟩⟩, Hg⟩, Ho, ⟨%d0, H0⟩, ⟨%d1, H1⟩, ⟨%d2, H2⟩, ⟨%d3, H3⟩, ⟨%d4, H4⟩, ⟨%d5, H5⟩, ⟨%d6, H6⟩⟩
    obtain rfl : db = layer1 m c := hdb.all h25'
    iapply (runC c (grid0.coords t) (sm0 t) (hm0 t) (sm1 t) (hm1 t) (sm2 t) (hm2 t) (sm3 t) (hm3 t) (sm4 t) (hm4 t) (sm5 t) (hm5 t) (sm6 t) (hm6 t) scA (Memref.isWhole_whole _) scB (Memref.isWhole_whole _)
      (fun h => hz ((isFirst_iff t).mp h)) (fun h => by have := (isLayer1_iff t).mp h; omega) ((isLayer2_iff t).mpr h25')
      (iblk m c 0 t) (iblk m c 1 t) (iblk m c 2 t) (iblk m c 3 t) (iblk m c 4 t) (iblk m c 5 t) (featW1 m c) (layer1 m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HA]; · iexact HA
    isplitl [HB]; · iexact HB
    iintro ⟨H0, H1, H2, H3, H4, H5, H6, HA, HB⟩
    isplitl [HA HB Hg]
    · isplitl [HA HB]
      · isplitl [HA]; · iexact HA
        iexists _; isplitr; swap; · iexact HB
        ipureintro; exact AgreesTo.of_eq rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl,
    Inv_pos m c _ _ (by rw [Fin.val_last]; have := N_eq; omega), PhiA_eq]
  iintro ⟨⟨HA, ⟨%db, -, HB⟩⟩, Hg⟩
  isplitl [HA HB]
  · isplitl [HA]
    · iexists _; iexact HA
    iexists _; iexact HB
  iexact Hg

/-! ## The run and the frame -/

set_option backward.isDefEq.respectTransparency.types false in
/-- Every weakly fair execution terminates, every array of the pipeline ends at what the proof data computes
    (the output: its entry contents overwritten block by block by `outAt`), every other unscoped buffer unchanged. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's statement, at any float values. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Hand

end
-- ==== Proof.KernelIdeal.Cases.lean ====
/-
  The two-layer graph convolution runs on a grid of 2 x 25 points, 50 in row-major order: points 0..24 are
  the first layer (point 0 also forms the product of the features with the first weight), points 25..49
  the second layer with the row-wise log-softmax. This module states, over the grid, which of the body's
  three conditionals fire at a point, where the output's staging buffer is left untouched and where it is
  written back, and names the staging and scratch buffers the body is called with.
-/
import proofs.«152889_g61306363183712_cont_9to1c4b_794_20_alg».proof.Proof.Gen.KernelIdeal.Frame
import proofs.«152889_g61306363183712_cont_9to1c4b_794_20_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-! ## The three conditionals, over the grid -/

/-- The first conditional: both grid coordinates are zero. -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The second conditional: the first layer's half of the grid. -/
abbrev isLayer1 (i : grid0.Coords) : Prop := k0_cond2 i = 1#1
/-- The third conditional: the second layer's half of the grid. -/
abbrev isLayer2 (i : grid0.Coords) : Prop := k0_cond3 i = 1#1

theorem isFirst_iff : ∀ t : Fin cfg0.N, isFirst (grid0.coords t) ↔ t.val = 0 :=
  (by decide +kernel : ∀ t : Fin grid0.N, isFirst (grid0.coords t) ↔ t.val = 0)
theorem isLayer1_iff : ∀ t : Fin cfg0.N, isLayer1 (grid0.coords t) ↔ t.val < 25 :=
  (by decide +kernel : ∀ t : Fin grid0.N, isLayer1 (grid0.coords t) ↔ t.val < 25)
theorem isLayer2_iff : ∀ t : Fin cfg0.N, isLayer2 (grid0.coords t) ↔ 25 ≤ t.val :=
  (by decide +kernel : ∀ t : Fin grid0.N, isLayer2 (grid0.coords t) ↔ 25 ≤ t.val)

/-- The row the first layer's slice store starts at: 400 times the point's position in its half. -/
theorem off_eq : ∀ t : Fin cfg0.N, t.val < 25 → k0_off1 (grid0.coords t) = ![400 * t.val, 0] :=
  (by decide +kernel : ∀ t : Fin grid0.N, t.val < 25 → k0_off1 (grid0.coords t) = ![400 * t.val, 0])

/-! ## Where the windows are idle, and where the output is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The output's buffer is untouched exactly in the first layer's half. -/
theorem idle6_iff : ∀ t : Fin cfg0.N, cfg0.idle 6 (grid0.coords t) = true ↔ t.val < 25 :=
  (by decide +kernel : ∀ t : Fin grid0.N, cfg0.idle 6 (grid0.coords t) = true ↔ t.val < 25)
/-- The output's block index is 0 through the first half and at point 25, then the point's position in the
    second half: the buffer is written back exactly at the points of the second half. -/
theorem flush6_iff : ∀ t : Fin cfg0.N, (cfg0.win 6).flush t = true ↔ 25 ≤ t.val :=
  (by decide +kernel : ∀ t : Fin grid0.N, win0_6.flush t = true ↔ 25 ≤ t.val)
/-- The output block written back at a point of the second half is the block of that position. -/
theorem index6 : ∀ t : Fin cfg0.N, 25 ≤ t.val → ∀ a : Fin 2, win0_6.index t a = ![t.val - 25, 0] a :=
  (by decide +kernel : ∀ t : Fin grid0.N, 25 ≤ t.val → ∀ a : Fin 2, win0_6.index t a = ![t.val - 25, 0] a)

/-! ## The buffers the body is called with -/

abbrev sm0 (t : Fin cfg0.N) : Memref sig .tc .vmem S1x400x10000 .f32 := win0_0.stage (cfg0.slots t 0)
abbrev hm0 (t : Fin cfg0.N) : (sm0 t).IsWhole := hstage0_0 ((cfg0.slots t 0).cast nbuf0_0)
abbrev sm1 (t : Fin cfg0.N) : Memref sig .tc .vmem S10000x128 .f32 := win0_1.stage (cfg0.slots t 1)
abbrev hm1 (t : Fin cfg0.N) : (sm1 t).IsWhole := hstage0_1 ((cfg0.slots t 1).cast nbuf0_1)
abbrev sm2 (t : Fin cfg0.N) : Memref sig .tc .vmem S128x16 .f32 := win0_2.stage (cfg0.slots t 2)
abbrev hm2 (t : Fin cfg0.N) : (sm2 t).IsWhole := hstage0_2 ((cfg0.slots t 2).cast nbuf0_2)
abbrev sm3 (t : Fin cfg0.N) : Memref sig .tc .vmem S1x16 .f32 := win0_3.stage (cfg0.slots t 3)
abbrev hm3 (t : Fin cfg0.N) : (sm3 t).IsWhole := hstage0_3 ((cfg0.slots t 3).cast nbuf0_3)
abbrev sm4 (t : Fin cfg0.N) : Memref sig .tc .vmem S16x16 .f32 := win0_4.stage (cfg0.slots t 4)
abbrev hm4 (t : Fin cfg0.N) : (sm4 t).IsWhole := hstage0_4 ((cfg0.slots t 4).cast nbuf0_4)
abbrev sm5 (t : Fin cfg0.N) : Memref sig .tc .vmem S1x16 .f32 := win0_5.stage (cfg0.slots t 5)
abbrev hm5 (t : Fin cfg0.N) : (sm5 t).IsWhole := hstage0_5 ((cfg0.slots t 5).cast nbuf0_5)
abbrev sm6 (t : Fin cfg0.N) : Memref sig .tc .vmem S400x16 .f32 := win0_6.stage (cfg0.slots t 6)
abbrev hm6 (t : Fin cfg0.N) : (sm6 t).IsWhole := hstage0_6 ((cfg0.slots t 6).cast nbuf0_6)
/-- The two scratch buffers: the product of the features with the first weight, and the first layer's result. -/
abbrev scA : Memref sig .tc .vmem S10000x16 .f32 := Memref.whole cc0_scratch0
abbrev scB : Memref sig .tc .vmem S10000x16 .f32 := Memref.whole cc0_scratch1

/-- What the region hands the body before the first point: both scratch buffers at some contents, and the
    generator register. -/
theorem PhiA_eq (c : Dev nD) :
    (Pipeline.ΦA spec0 c : sProp 𝕄)
      = iprop(iprop((∃ d, owns (c : Thread nD τ) scA fullShare d) ∗ (∃ d, owns (c : Thread nD τ) scB fullShare d)) ∗ (∃ r, prngReg c r)) := by
  unfold Pipeline.ΦA; rw [scopedRest0_eq]; simp only [scA, scB, owns_whole]; try rfl

end Cert.KernelIdeal.Hand

end
-- ==== Proof.KernelIdeal.Contents.lean ====
/-
  What the body carries from point to point, as functions of the input blocks the region stages.

  `featW1` is the product of the features with the first weight, formed at the first point. `layer1` is
  the first layer's result, all 10000 rows of it: row r is computed at point r / 400, from that point's
  adjacency block, `featW1`, the first bias and the second weight, at local row r % 400. `outAt t` is the
  output block of a point of the second half: the row-wise log-softmax of (adjacency block) x `layer1` + second
  bias. The second scratch buffer is filled 400 rows per point, so after n points it AGREES with `layer1`
  on its first 400 n rows; after 25 points it is `layer1`.
-/
import proofs.«152889_g61306363183712_cont_9to1c4b_794_20_alg».proof.Proof.KernelIdeal.Cases
import proofs.«152889_g61306363183712_cont_9to1c4b_794_20_alg».proof.Proof.LibRowStore

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx

variable {F : FTy → Type} [FloatOps F]

variable (m : (ℓ : Loc nD τ sig) → Buf (Elt F) ℓ)

theorem N_eq : cfg0.N = 50 := N_0

/-- The first point. -/
def pt0 : Fin cfg0.N := ⟨0, by rw [N_eq]; omega⟩

/-- Each input's block at a point, at its literal shape. -/
def adjAt (c : Dev nD) (t : Fin cfg0.N) : Vec F S1x400x10000 .f32 := iblk m c 0 t
def featAt (c : Dev nD) (t : Fin cfg0.N) : Vec F S10000x128 .f32 := iblk m c 1 t
def w1At (c : Dev nD) (t : Fin cfg0.N) : Vec F S128x16 .f32 := iblk m c 2 t
def b1At (c : Dev nD) (t : Fin cfg0.N) : Vec F S1x16 .f32 := iblk m c 3 t
def w2At (c : Dev nD) (t : Fin cfg0.N) : Vec F S16x16 .f32 := iblk m c 4 t
def b2At (c : Dev nD) (t : Fin cfg0.N) : Vec F S1x16 .f32 := iblk m c 5 t

/-- The point that computes row `y 0` of the first layer's result, and the row's position in that point's block. -/
def rowPoint (y : S10000x16.Idx) : Fin cfg0.N :=
  ⟨(y 0).val / 400, by rw [N_eq]; have := idx2_lt0 y; omega⟩
def rowLocal (y : S10000x16.Idx) : S400x16.Idx :=
  ix2 (⟨(y 0).val % 400, Nat.mod_lt _ (by norm_num)⟩ : Fin 400) (⟨(y 1).val, idx2_lt1 y⟩ : Fin 16)

/-- The features times the first weight. -/
def featW1 (c : Dev nD) : Vec F S10000x16 .f32 := k0_pay1 (featAt m c pt0) (w1At m c pt0)

/-- The first layer's result, row by row. -/
def layer1 (c : Dev nD) : Vec F S10000x16 .f32 := fun y =>
  k0_pay2 (adjAt m c (rowPoint y)) (featW1 m c) (b1At m c (rowPoint y)) (w2At m c (rowPoint y)) (rowLocal y)

/-- The output block of point `t`. -/
def outAt (c : Dev nD) (t : Fin cfg0.N) : Vec F S400x16 .f32 := k0_pay3 (adjAt m c t) (layer1 m c) (b2At m c t)

/-- `d` agrees with `g` on the first `400 n` rows. -/
def AgreesTo (n : ℕ) (d g : Vec F S10000x16 .f32) : Prop := ∀ y : S10000x16.Idx, (y 0).val < 400 * n → d y = g y

theorem AgreesTo.all {n : ℕ} {d g : Vec F S10000x16 .f32} (h : AgreesTo n d g) (hn : 25 ≤ n) : d = g :=
  funext fun y => h y (by have := idx2_lt0 y; omega)

theorem AgreesTo.of_eq {n : ℕ} {d g : Vec F S10000x16 .f32} (h : d = g) : AgreesTo n d g := fun y _ => congrFun h y

/-- Storing point `t`'s block into its 400 rows extends the agreement by those rows. -/
theorem AgreesTo.step (c : Dev nD) (t : Fin cfg0.N) (ht : t.val < 25)
    (M : Memref sig .tc .vmem S10000x16 .f32) (hM : M.IsWhole) (off : Fin 2 → ℕ)
    (inb : ∀ a : Fin 2, off a + (![400, 16] : Fin 2 → ℕ) a ≤ (![10000, 16] : Fin 2 → ℕ) a) (hoff : off = ![400 * t.val, 0])
    (d : Vec F S10000x16 .f32) (h : AgreesTo t.val d (layer1 m c)) :
    AgreesTo (t.val + 1)
      (RowStore.putRows (R := 10000) (C := 16) (W := 400) M hM off inb d
        (k0_pay2 (adjAt m c t) (featW1 m c) (b1At m c t) (w2At m c t))) (layer1 m c) := by
  intro y hy
  by_cases hin : 400 * t.val ≤ (y 0).val
  · have hr : (y 0).val - 400 * t.val < 400 := by omega
    rw [RowStore.putRows_inside M hM off inb d _ (400 * t.val) hoff y ⟨(y 0).val - 400 * t.val, hr⟩ ⟨(y 1).val, idx2_lt1 y⟩
      (by show (y 0).val = 400 * t.val + ((y 0).val - 400 * t.val); omega) rfl]
    have hp : rowPoint y = t := Fin.ext (by show (y 0).val / 400 = t.val; omega)
    have hl : rowLocal y = ix2 (⟨(y 0).val - 400 * t.val, hr⟩ : Fin 400) (⟨(y 1).val, idx2_lt1 y⟩ : Fin 16) := by
      unfold rowLocal
      congr 1
      exact Fin.ext (by show (y 0).val % 400 = (y 0).val - 400 * t.val; omega)
    show _ = k0_pay2 (adjAt m c (rowPoint y)) (featW1 m c) (b1At m c (rowPoint y)) (w2At m c (rowPoint y)) (rowLocal y)
    rw [hp, hl]
  · rw [RowStore.putRows_outside M hM off inb d _ (400 * t.val) hoff y (Or.inl (by omega))]
    exact h y (by omega)

end Cert.KernelIdeal.Hand

end
-- ==== Proof.KernelIdeal.RunA.lean ====
/-
  The body at the first point: it stores the product of the features with the first weight into the first
  scratch buffer (whole), then, reading that product back, stores the first block of the first layer's
  result into rows 0..399 of the second scratch buffer; the output's staging buffer is not touched.
-/
import proofs.«152889_g61306363183712_cont_9to1c4b_794_20_alg».proof.Proof.KernelIdeal.Cases
import proofs.«152889_g61306363183712_cont_9to1c4b_794_20_alg».proof.Proof.LibRowStore

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
theorem runA (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole) (hc0 : isFirst i) (hc1 : isLayer1 i) (hc2 : ¬isLayer2 i)
    (x0 : Vec F S1x400x10000 .f32) (x1 : Vec F S10000x128 .f32) (x2 : Vec F S128x16 .f32) (x3 : Vec F S1x16 .f32) (x4 : Vec F S16x16 .f32) (x5 : Vec F S1x16 .f32) (x6 : Vec F S400x16 .f32) (xb : Vec F S10000x16 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xb
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay1 x1 x2)
            ∗ owns (c : Thread nD τ) arg10 fullShare (RowStore.putRows (R := 10000) (C := 16) (W := 400) arg10 harg10 (k0_off1 i) (k0_off1_inb i hc1) xb (k0_pay2 x0 (k0_pay1 x1 x2) x3 x4))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%da, %fa, -, HA⟩, ⟨%fb, %hfb, HB⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfb
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HA]
  · iexists _; isplitr; swap; · iexact HA
    ipureintro
    have hz2 : (![0, 0] : Fin 2 → ℕ) = fun _ => 0 := by funext a; fin_cases a <;> rfl
    sl_unfold_run_names
    rw [RowStore.read_writes_unit_zero _ _ hz2]
    simp only [View.readAt_eq_ld, harg3.read_unread, harg4.read_unread,
      View.ld_unit_zero (S := S10000x128) hz2, View.ld_unit_zero (S := S128x16) hz2]
  iexists _; isplitr; swap; · iexact HB
  ipureintro
  have hz2 : (![0, 0] : Fin 2 → ℕ) = fun _ => 0 := by funext a; fin_cases a <;> rfl
  have hz3 : (![0, 0, 0] : Fin 3 → ℕ) = fun _ => 0 := by funext a; fin_cases a <;> rfl
  sl_unfold_run_names
  unfold RowStore.putRows
  rw [View.readCov_unit_zero arg9.view hz2]
  simp only [View.readAt_eq_ld, harg2.read_unread, harg3.read_unread, harg4.read_unread, harg5.read_unread, harg6.read_unread,
    View.ld_unit_zero (S := S1x400x10000) hz3, View.ld_unit_zero (S := S10000x128) hz2, View.ld_unit_zero (S := S128x16) hz2,
    View.ld_unit_zero (S := S1x16) hz2, View.ld_unit_zero (S := S16x16) hz2]

end Cert.KernelIdeal.Hand

end
-- ==== Proof.KernelIdeal.RunB.lean ====
/-
  The body at a later point of the first layer's half: it reads the first scratch buffer, stores this
  point's block of the first layer's result into its 400 rows of the second scratch buffer and leaves the
  rest of that buffer, the first scratch buffer and the output's staging buffer as they were.
-/
import proofs.«152889_g61306363183712_cont_9to1c4b_794_20_alg».proof.Proof.KernelIdeal.Cases
import proofs.«152889_g61306363183712_cont_9to1c4b_794_20_alg».proof.Proof.LibRowStore

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
theorem runB (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole) (hc0 : ¬isFirst i) (hc1 : isLayer1 i) (hc2 : ¬isLayer2 i)
    (x0 : Vec F S1x400x10000 .f32) (x1 : Vec F S10000x128 .f32) (x2 : Vec F S128x16 .f32) (x3 : Vec F S1x16 .f32) (x4 : Vec F S16x16 .f32) (x5 : Vec F S1x16 .f32) (x6 : Vec F S400x16 .f32) (xa xb : Vec F S10000x16 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xa ∗ owns (c : Thread nD τ) arg10 fullShare xb
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xa
            ∗ owns (c : Thread nD τ) arg10 fullShare (RowStore.putRows (R := 10000) (C := 16) (W := 400) arg10 harg10 (k0_off1 i) (k0_off1_inb i hc1) xb (k0_pay2 x0 xa x3 x4))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fa, %hfa, HA⟩, ⟨%fb, %hfb, HB⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfa; obtain rfl := harg10.eq_unread hfb
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HA]
  · iexists _; isplitr; swap; · iexact HA
    ipureintro
    exact harg9.read_unread _
  iexists _; isplitr; swap; · iexact HB
  ipureintro
  have hz2 : (![0, 0] : Fin 2 → ℕ) = fun _ => 0 := by funext a; fin_cases a <;> rfl
  have hz3 : (![0, 0, 0] : Fin 3 → ℕ) = fun _ => 0 := by funext a; fin_cases a <;> rfl
  unfold RowStore.putRows
  simp only [View.readAt_eq_ld, harg2.read_unread, harg9.read_unread, harg5.read_unread, harg6.read_unread,
    View.ld_unit_zero (S := S1x400x10000) hz3, View.ld_unit_zero (S := S10000x16) hz2, View.ld_unit_zero (S := S1x16) hz2,
    View.ld_unit_zero (S := S16x16) hz2]

end Cert.KernelIdeal.Hand

end
-- ==== Proof.KernelIdeal.RunC.lean ====
/-
  The body at a point of the second layer's half: it stores nothing into either scratch buffer, and leaves
  in the output's staging buffer the block's row-wise log-softmax of (adjacency block) x (first layer's
  result) + bias, a function of the adjacency block, the whole second scratch buffer and the bias row.
-/
import proofs.«152889_g61306363183712_cont_9to1c4b_794_20_alg».proof.Proof.KernelIdeal.Cases
import proofs.«152889_g61306363183712_cont_9to1c4b_794_20_alg».proof.Proof.LibRowStore

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
theorem runC (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole) (hc0 : ¬isFirst i) (hc1 : ¬isLayer1 i) (hc2 : isLayer2 i)
    (x0 : Vec F S1x400x10000 .f32) (x1 : Vec F S10000x128 .f32) (x2 : Vec F S128x16 .f32) (x3 : Vec F S1x16 .f32) (x4 : Vec F S16x16 .f32) (x5 : Vec F S1x16 .f32) (xa xb : Vec F S10000x16 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xa ∗ owns (c : Thread nD τ) arg10 fullShare xb
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay3 x0 xb x5) ∗ owns (c : Thread nD τ) arg9 fullShare xa ∗ owns (c : Thread nD τ) arg10 fullShare xb) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fa, %hfa, HA⟩, ⟨%fb, %hfb, HB⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfa; obtain rfl := harg10.eq_unread hfb
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    have hz2 : (![0, 0] : Fin 2 → ℕ) = fun _ => 0 := by funext a; fin_cases a <;> rfl
    have hz3 : (![0, 0, 0] : Fin 3 → ℕ) = fun _ => 0 := by funext a; fin_cases a <;> rfl
    rw [RowStore.read_writes_unit_zero _ _ hz2]
    simp only [View.readAt_eq_ld, harg2.read_unread, harg10.read_unread, harg7.read_unread,
      View.ld_unit_zero (S := S1x400x10000) hz3, View.ld_unit_zero (S := S10000x16) hz2, View.ld_unit_zero (S := S1x16) hz2]
  isplitl [HA]
  · iexists _; isplitr; · ipureintro; exact harg9.read_unread _
    iexact HA
  iexists _; isplitr; · ipureintro; exact harg10.read_unread _
  iexact HB

end Cert.KernelIdeal.Hand

end
-- ==== Proof.KernelIdeal.Frame.lean ====
/-
  The frame of the kernel's program, with what it leaves NAMED. Through the 50 points the body carries two
  scratch buffers: after any point the first holds the features times the first weight (`featW1`), and after
  point n - 1 the second agrees with the first layer's result (`layer1`) on its first 400 n rows. The output's
  staging buffer is left alone through the first half and, at a point of the second half, receives that
  point's block (`outAt`), which is then written back. Each input's buffer holds its block throughout.
-/
import proofs.«152889_g61306363183712_cont_9to1c4b_794_20_alg».proof.Proof.KernelIdeal.Contents
import proofs.«152889_g61306363183712_cont_9to1c4b_794_20_alg».proof.Proof.KernelIdeal.RunA
import proofs.«152889_g61306363183712_cont_9to1c4b_794_20_alg».proof.Proof.KernelIdeal.RunB
import proofs.«152889_g61306363183712_cont_9to1c4b_794_20_alg».proof.Proof.KernelIdeal.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant -/

/-- Before point `n`: at the start what the region hands over (both scratch buffers at anything); later the
    first scratch buffer at `featW1` and the second at contents agreeing with `layer1` on the rows stored so far. -/
def Inv (c : Dev nD) : (n : ℕ) → n ≤ cfg0.N → sProp 𝕄
  | 0, _ => Pipeline.ΦA spec0 c
  | n + 1, _ => iprop(iprop(owns (c : Thread nD τ) scA fullShare (featW1 m c) ∗ (∃ d, ⌜AgreesTo (n + 1) d (layer1 m c)⌝ ∗ owns (c : Thread nD τ) scB fullShare d)) ∗ (∃ r, prngReg c r))

theorem Inv_zero (c : Dev nD) (n : ℕ) (h : n ≤ cfg0.N) (hz : n = 0) : Inv m c n h = Pipeline.ΦA spec0 c := by
  subst hz; rfl

theorem Inv_succ (c : Dev nD) (n : ℕ) (hn : n + 1 ≤ cfg0.N) :
    Inv m c (n + 1) hn = iprop(iprop(owns (c : Thread nD τ) scA fullShare (featW1 m c) ∗ (∃ d, ⌜AgreesTo (n + 1) d (layer1 m c)⌝ ∗ owns (c : Thread nD τ) scB fullShare d)) ∗ (∃ r, prngReg c r)) := rfl

theorem Inv_pos (c : Dev nD) (n : ℕ) (h : n ≤ cfg0.N) (hz : n ≠ 0) :
    Inv m c n h = iprop(iprop(owns (c : Thread nD τ) scA fullShare (featW1 m c) ∗ (∃ d, ⌜AgreesTo n d (layer1 m c)⌝ ∗ owns (c : Thread nD τ) scB fullShare d)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (sm0 t) fullShare ((dats m 0 c).before 0 t d))
    ∗ (∃ d, owns (c : Thread nD τ) (sm1 t) fullShare ((dats m 0 c).before 1 t d))
    ∗ (∃ d, owns (c : Thread nD τ) (sm2 t) fullShare ((dats m 0 c).before 2 t d))
    ∗ (∃ d, owns (c : Thread nD τ) (sm3 t) fullShare ((dats m 0 c).before 3 t d))
    ∗ (∃ d, owns (c : Thread nD τ) (sm4 t) fullShare ((dats m 0 c).before 4 t d))
    ∗ (∃ d, owns (c : Thread nD τ) (sm5 t) fullShare ((dats m 0 c).before 5 t d))
    ∗ (∃ d, owns (c : Thread nD τ) (sm6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point, by the half the point lies in (and, in the first half, whether it is the first). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = Inv m c (t.val + 1) t.isLt from rfl, Inv_succ]
  have hN : t.val < 50 := lt_of_lt_of_eq t.isLt N_eq
  rw [show (dats m 0 c).leavesExact 0 t = owns (c : Thread nD τ) (sm0 t) fullShare ((dats m 0 c).after 0 t) from by
    unfold Dat.leavesExact; rw [live0 t], after0]
  rw [show (dats m 0 c).leavesExact 1 t = owns (c : Thread nD τ) (sm1 t) fullShare ((dats m 0 c).after 1 t) from by
    unfold Dat.leavesExact; rw [live1 t], after1]
  rw [show (dats m 0 c).leavesExact 2 t = owns (c : Thread nD τ) (sm2 t) fullShare ((dats m 0 c).after 2 t) from by
    unfold Dat.leavesExact; rw [live2 t], after2]
  rw [show (dats m 0 c).leavesExact 3 t = owns (c : Thread nD τ) (sm3 t) fullShare ((dats m 0 c).after 3 t) from by
    unfold Dat.leavesExact; rw [live3 t], after3]
  rw [show (dats m 0 c).leavesExact 4 t = owns (c : Thread nD τ) (sm4 t) fullShare ((dats m 0 c).after 4 t) from by
    unfold Dat.leavesExact; rw [live4 t], after4]
  rw [show (dats m 0 c).leavesExact 5 t = owns (c : Thread nD τ) (sm5 t) fullShare ((dats m 0 c).after 5 t) from by
    unfold Dat.leavesExact; rw [live5 t], after5]
  by_cases h25 : t.val < 25
  · -- the first half: the output's buffer is handed back as found
    have hidle : cfg0.idle 6 (grid0.coords t) = true := (idle6_iff t).mpr h25
    have hfl : (cfg0.win 6).flush t = false := Bool.eq_false_iff.mpr fun h => by have := (flush6_iff t).mp h; omega
    rw [(dats m 0 c).leavesExact_idle 6 t hidle hfl]
    have hoff := off_eq t h25
    by_cases hz : t.val = 0
    · rw [Inv_castSucc m c t, Inv_zero m c _ _ hz, PhiA_eq]
      iintro ⟨⟨⟨HA, ⟨%db, HB⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runA c (grid0.coords t) (sm0 t) (hm0 t) (sm1 t) (hm1 t) (sm2 t) (hm2 t) (sm3 t) (hm3 t) (sm4 t) (hm4 t) (sm5 t) (hm5 t) (sm6 t) (hm6 t) scA (Memref.isWhole_whole _) scB (Memref.isWhole_whole _)
        ((isFirst_iff t).mpr hz) ((isLayer1_iff t).mpr h25) (fun h => by have := (isLayer2_iff t).mp h; omega)
        (iblk m c 0 t) (iblk m c 1 t) (iblk m c 2 t) (iblk m c 3 t) (iblk m c 4 t) (iblk m c 5 t) ((dats m 0 c).before 6 t d6) db Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HA]; · iexact HA
      isplitl [HB]; · iexact HB
      iintro ⟨H0, H1, H2, H3, H4, H5, H6, HA, HB⟩
      isplitl [HA HB Hg]
      · isplitl [HA HB]
        · isplitl [HA]
          · have ht0 : t = pt0 := Fin.ext hz
            rw [show featW1 m c = k0_pay1 (iblk m c 1 t) (iblk m c 2 t) from by rw [ht0]; rfl]
            iexact HA
          iexists _; isplitr; swap; · iexact HB
          ipureintro
          have hstep := AgreesTo.step m c t h25 scB (Memref.isWhole_whole _) (k0_off1 (grid0.coords t)) (k0_off1_inb (grid0.coords t) ((isLayer1_iff t).mpr h25)) hoff db
            (fun y hy => by rw [hz] at hy; omega)
          have ht0 : t = pt0 := Fin.ext hz
          rw [show featW1 m c = k0_pay1 (iblk m c 1 t) (iblk m c 2 t) from by rw [ht0]; rfl] at hstep
          exact hstep
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [Inv_castSucc m c t, Inv_pos m c _ _ hz]
      iintro ⟨⟨⟨HA, ⟨%db, %hdb, HB⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runB c (grid0.coords t) (sm0 t) (hm0 t) (sm1 t) (hm1 t) (sm2 t) (hm2 t) (sm3 t) (hm3 t) (sm4 t) (hm4 t) (sm5 t) (hm5 t) (sm6 t) (hm6 t) scA (Memref.isWhole_whole _) scB (Memref.isWhole_whole _)
        (fun h => hz ((isFirst_iff t).mp h)) ((isLayer1_iff t).mpr h25) (fun h => by have := (isLayer2_iff t).mp h; omega)
        (iblk m c 0 t) (iblk m c 1 t) (iblk m c 2 t) (iblk m c 3 t) (iblk m c 4 t) (iblk m c 5 t) ((dats m 0 c).before 6 t d6) (featW1 m c) db Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HA]; · iexact HA
      isplitl [HB]; · iexact HB
      iintro ⟨H0, H1, H2, H3, H4, H5, H6, HA, HB⟩
      isplitl [HA HB Hg]
      · isplitl [HA HB]
        · isplitl [HA]; · iexact HA
          iexists _; isplitr; swap; · iexact HB
          ipureintro
          exact AgreesTo.step m c t h25 scB (Memref.isWhole_whole _) (k0_off1 (grid0.coords t)) (k0_off1_inb (grid0.coords t) ((isLayer1_iff t).mpr h25)) hoff db hdb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · -- the second half: the output's buffer receives the point's block
    have h25' : 25 ≤ t.val := by omega
    have hz : t.val ≠ 0 := by omega
    have hlive : cfg0.idle 6 (grid0.coords t) = false := Bool.eq_false_iff.mpr fun h => by have := (idle6_iff t).mp h; omega
    rw [show (dats m 0 c).leavesExact 6 t = owns (c : Thread nD τ) (sm6 t) fullShare ((dats m 0 c).after 6 t) from by
      unfold Dat.leavesExact; rw [hlive], after6]
    rw [Inv_castSucc m c t, Inv_pos m c _ _ hz]
    iintro ⟨⟨⟨HA, ⟨%db, %hdb, HB⟩⟩, Hg⟩, Ho, ⟨%d0, H0⟩, ⟨%d1, H1⟩, ⟨%d2, H2⟩, ⟨%d3, H3⟩, ⟨%d4, H4⟩, ⟨%d5, H5⟩, ⟨%d6, H6⟩⟩
    obtain rfl : db = layer1 m c := hdb.all h25'
    iapply (runC c (grid0.coords t) (sm0 t) (hm0 t) (sm1 t) (hm1 t) (sm2 t) (hm2 t) (sm3 t) (hm3 t) (sm4 t) (hm4 t) (sm5 t) (hm5 t) (sm6 t) (hm6 t) scA (Memref.isWhole_whole _) scB (Memref.isWhole_whole _)
      (fun h => hz ((isFirst_iff t).mp h)) (fun h => by have := (isLayer1_iff t).mp h; omega) ((isLayer2_iff t).mpr h25')
      (iblk m c 0 t) (iblk m c 1 t) (iblk m c 2 t) (iblk m c 3 t) (iblk m c 4 t) (iblk m c 5 t) (featW1 m c) (layer1 m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HA]; · iexact HA
    isplitl [HB]; · iexact HB
    iintro ⟨H0, H1, H2, H3, H4, H5, H6, HA, HB⟩
    isplitl [HA HB Hg]
    · isplitl [HA HB]
      · isplitl [HA]; · iexact HA
        iexists _; isplitr; swap; · iexact HB
        ipureintro; exact AgreesTo.of_eq rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl,
    Inv_pos m c _ _ (by rw [Fin.val_last]; have := N_eq; omega), PhiA_eq]
  iintro ⟨⟨HA, ⟨%db, -, HB⟩⟩, Hg⟩
  isplitl [HA HB]
  · isplitl [HA]
    · iexists _; iexact HA
    iexists _; iexact HB
  iexact Hg

/-! ## The run and the frame -/

set_option backward.isDefEq.respectTransparency.types false in
/-- Every weakly fair execution terminates, every array of the pipeline ends at what the proof data computes
    (the output: its entry contents overwritten block by block by `outAt`), every other unscoped buffer unchanged. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's statement, at any float values. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Hand

end
-- ==== Proof.KernelIdeal.Blocks.lean ====
/-
  Each input's block at a point, read at coordinates off the array the region found. The propagation
  matrices' block at point t is the 400 rows starting at row 400 (t mod 25) of matrix t / 25; every other input's
  window is its whole array at every point. The two bias rows are arrays the program formed before the region,
  by giving each bias vector a leading unit axis.
-/
import proofs.«152889_g61306363183712_cont_9to1c4b_794_20_alg».proof.Proof.KernelIdeal.Contents
import Idealize.ShloMosaic.Lib.ValueLayout
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx

variable {F : FTy → Type} [FloatOps F]

variable (m : (ℓ : Loc nD τ sig) → Buf (Elt F) ℓ)

/-- The printed index maps, decided over the grid. -/
theorem index0 : ∀ t : Fin cfg0.N, win0_0.index t (0 : Fin 3) = t.val / 25 ∧ win0_0.index t (1 : Fin 3) = t.val % 25 ∧ win0_0.index t (2 : Fin 3) = 0 :=
  (by decide +kernel : ∀ t : Fin grid0.N, win0_0.index t (0 : Fin 3) = t.val / 25 ∧ win0_0.index t (1 : Fin 3) = t.val % 25 ∧ win0_0.index t (2 : Fin 3) = 0)
theorem index1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem index2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem index3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem index4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem index5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- The propagation matrices' block at point t: rows 400 (t mod 25) .. of matrix t / 25. -/
theorem adjAt_apply (c : Dev nD) (t : Fin cfg0.N) (r : Fin 400) (q : Fin 10000) :
    adjAt m c t (ix3 (0 : Fin 1) r q)
      = V m c main_arg1 (ix3 (⟨t.val / 25, by have := lt_of_lt_of_eq t.isLt N_eq; omega⟩ : Fin 2)
          (⟨400 * (t.val % 25) + r.val, by have := r.isLt; omega⟩ : Fin 10000) q) := by
  show V m c main_arg1 (((cfg0.win 0).blk t).view.emb (ix3 (0 : Fin 1) r q)) = _
  refine congrArg (V m c main_arg1) (funext fun a => Fin.ext ?_)
  obtain ⟨e0, e1, e2⟩ := index0 t
  match a with
  | ⟨0, _⟩ => show win0_0.index t (0 : Fin 3) * 1 + 1 * 0 = t.val / 25; omega
  | ⟨1, _⟩ => show win0_0.index t (1 : Fin 3) * 400 + 1 * r.val = 400 * (t.val % 25) + r.val; omega
  | ⟨2, _⟩ => show win0_0.index t (2 : Fin 3) * 10000 + 1 * q.val = q.val; omega

theorem featAt_apply (c : Dev nD) (t : Fin cfg0.N) (q : Fin 10000) (f : Fin 128) :
    featAt m c t (ix2 q f) = V m c main_arg0 (ix2 q f) := by
  show V m c main_arg0 (((cfg0.win 1).blk t).view.emb (ix2 q f)) = _
  refine congrArg (V m c main_arg0) (funext fun a => Fin.ext ?_)
  obtain ⟨e0, e1⟩ := index1 t
  match a with
  | ⟨0, _⟩ => show win0_1.index t (0 : Fin 2) * 10000 + 1 * q.val = q.val; omega
  | ⟨1, _⟩ => show win0_1.index t (1 : Fin 2) * 128 + 1 * f.val = f.val; omega

theorem w1At_apply (c : Dev nD) (t : Fin cfg0.N) (f : Fin 128) (h : Fin 16) :
    w1At m c t (ix2 f h) = V m c main_arg2 (ix2 f h) := by
  show V m c main_arg2 (((cfg0.win 2).blk t).view.emb (ix2 f h)) = _
  refine congrArg (V m c main_arg2) (funext fun a => Fin.ext ?_)
  obtain ⟨e0, e1⟩ := index2 t
  match a with
  | ⟨0, _⟩ => show win0_2.index t (0 : Fin 2) * 128 + 1 * f.val = f.val; omega
  | ⟨1, _⟩ => show win0_2.index t (1 : Fin 2) * 16 + 1 * h.val = h.val; omega

theorem b1At_apply (c : Dev nD) (t : Fin cfg0.N) (h : Fin 16) :
    b1At m c t (ix2 (0 : Fin 1) h) = V m c main_call0_v0 (ix2 (0 : Fin 1) h) := by
  show V m c main_call0_v0 (((cfg0.win 3).blk t).view.emb (ix2 (0 : Fin 1) h)) = _
  refine congrArg (V m c main_call0_v0) (funext fun a => Fin.ext ?_)
  obtain ⟨e0, e1⟩ := index3 t
  match a with
  | ⟨0, _⟩ => show win0_3.index t (0 : Fin 2) * 1 + 1 * 0 = 0; omega
  | ⟨1, _⟩ => show win0_3.index t (1 : Fin 2) * 16 + 1 * h.val = h.val; omega

theorem w2At_apply (c : Dev nD) (t : Fin cfg0.N) (h : Fin 16) (j : Fin 16) :
    w2At m c t (ix2 h j) = V m c main_arg4 (ix2 h j) := by
  show V m c main_arg4 (((cfg0.win 4).blk t).view.emb (ix2 h j)) = _
  refine congrArg (V m c main_arg4) (funext fun a => Fin.ext ?_)
  obtain ⟨e0, e1⟩ := index4 t
  match a with
  | ⟨0, _⟩ => show win0_4.index t (0 : Fin 2) * 16 + 1 * h.val = h.val; omega
  | ⟨1, _⟩ => show win0_4.index t (1 : Fin 2) * 16 + 1 * j.val = j.val; omega

theorem b2At_apply (c : Dev nD) (t : Fin cfg0.N) (j : Fin 16) :
    b2At m c t (ix2 (0 : Fin 1) j) = V m c main_call0_v1 (ix2 (0 : Fin 1) j) := by
  show V m c main_call0_v1 (((cfg0.win 5).blk t).view.emb (ix2 (0 : Fin 1) j)) = _
  refine congrArg (V m c main_call0_v1) (funext fun a => Fin.ext ?_)
  obtain ⟨e0, e1⟩ := index5 t
  match a with
  | ⟨0, _⟩ => show win0_5.index t (0 : Fin 2) * 1 + 1 * 0 = 0; omega
  | ⟨1, _⟩ => show win0_5.index t (1 : Fin 2) * 16 + 1 * j.val = j.val; omega

/-- The first bias row the region finds: the first bias vector with a leading unit axis. -/
theorem V_bias1 (c : Dev nD) :
    (V m c main_call0_v0 : S1x16.Idx → Elt F .f32) = shapeCast S1x16 (m ((c : Thread nD τ).loc main_arg3)) shapeCasts_S16_S1x16 := by
  dsimp only [Gen.V, Gen.hostOps0]; after_results; rfl

/-- The second bias row the region finds. -/
theorem V_bias2 (c : Dev nD) :
    (V m c main_call0_v1 : S1x16.Idx → Elt F .f32) = shapeCast S1x16 (m ((c : Thread nD τ).loc main_arg5)) shapeCasts_S16_S1x16 := by
  dsimp only [Gen.V, Gen.hostOps0]; after_results; rfl

end Cert.KernelIdeal.Hand

end
-- ==== Proof.Spec.lean ====
/-
  The two-layer graph convolution with a row-wise log-softmax, element by element, on the extended reals.

  With features X (10000 x 128), two propagation matrices A(0), A(1) (10000 x 10000 each), weights W1
  (128 x 16), W2 (16 x 16) and biases B1, B2 (16 each):
    featW1(q,h) = Σ_f X(q,f) · W1(f,h)
    hidden(k,h) = max( Σ_q A(0)(k,q) · featW1(q,h) + B1(h), 0 )
    layer1(k,j) = Σ_h hidden(k,h) · W2(h,j)
    logit(r,j)  = Σ_k A(1)(r,k) · layer1(k,j) + B2(j)
    out(r,j)    = (logit(r,j) − M_r) − log Σ_j' exp(logit(r,j') − M_r),   M_r the maximum of row r from −∞.
  Each sum is written once, over the whole contracted axis, in one order: two programs that form these sums
  over the same index sets meet here without any rearrangement.
-/
import Idealize.ShloMosaic.PureOps.Ideal
import Idealize.ShloMosaic.Lib.ValueIdx

noncomputable section

open scoped BigOperators

namespace GcnSpec

open Idealize.ShloMosaic Idealize.ShloMosaic.ValueIdx

variable (X : (⟨2, ![10000, 128]⟩ : Shape).Idx → EReal) (A : (⟨3, ![2, 10000, 10000]⟩ : Shape).Idx → EReal)
  (W1 : (⟨2, ![128, 16]⟩ : Shape).Idx → EReal) (B1 : (⟨1, ![16]⟩ : Shape).Idx → EReal)
  (W2 : (⟨2, ![16, 16]⟩ : Shape).Idx → EReal) (B2 : (⟨1, ![16]⟩ : Shape).Idx → EReal)

/-- The number the zero word denotes (never evaluated: the same word stands on both sides). -/
abbrev zeroWord : EReal := Ideal.ofBits .f32 0x00000000#32

def featW1 (q : Fin 10000) (h : Fin 16) : EReal := ∑ f : Fin 128, X (ix2 q f) * W1 (ix2 f h)

def hidden (k : Fin 10000) (h : Fin 16) : EReal :=
  max ((∑ q : Fin 10000, A (ix3 (0 : Fin 2) k q) * featW1 X W1 q h) + B1 (ix1 h)) zeroWord

def layer1 (k : Fin 10000) (j : Fin 16) : EReal := ∑ h : Fin 16, hidden X A W1 B1 k h * W2 (ix2 h j)

def logit (r : Fin 10000) (j : Fin 16) : EReal :=
  (∑ k : Fin 10000, A (ix3 (1 : Fin 2) r k) * layer1 X A W1 B1 W2 k j) + B2 (ix1 j)

/-- The log-softmax of one row, by the row's maximum from −∞. -/
def logSoftmax (g : Fin 16 → EReal) (j : Fin 16) : EReal :=
  (g j - (Finset.univ : Finset (Fin 16)).fold max ⊥ g)
    - Ideal.log (∑ k : Fin 16, Ideal.exp (g k - (Finset.univ : Finset (Fin 16)).fold max ⊥ g))

def out (r : Fin 10000) (j : Fin 16) : EReal := logSoftmax (logit X A W1 B1 W2 B2 r) j

end GcnSpec

end
-- ==== Proof.LibMatrixAtIndex.lean ====
/-
  Vector operations of a graph-convolution layer body read at one index, at the exact (extended-real) instance and
  over arbitrary extents: a row sum and a row maximum of a matrix; the column shapes a keep-dimension reduction
  passes through; a matrix product into a zero accumulator for each of the three ways its two operands are
  contracted (rows against columns, rows against rows, columns against columns); the select that puts one where a
  shifted row number meets a column number; a row-wise log-softmax; the literals 1 and -∞.
-/
import Idealize.ShloMosaic.PureOps
import Idealize.ShloMosaic.Lib.ValueIdx
import Idealize.ShloMosaic.Lib.ValueLayout
import Idealize.ShloMosaic.PureOps.Ideal.Laws

noncomputable section

open scoped BigOperators

namespace Cert.KernelIdeal.Pay

open Idealize.ShloMosaic Idealize.ShloMosaic.ValueIdx

/-! ## A reduction along the rows of a matrix -/

section Rows
variable {a b : Nat} {φ : FTy}

/-- The index over row `r` with column `k` inserted is `(r, k)`. -/
theorem lift_row (h : (⟨2, ![a, b]⟩ : Shape).Reduces [1] ⟨1, ![a]⟩) (r : Fin a) (k : Fin b) :
    h.lift (ix1 r) k = ix2 r k := by
  funext c
  match c with
  | ⟨0, _⟩ => exact Fin.ext rfl
  | ⟨1, _⟩ => exact Fin.ext rfl

/-- A sum along the rows, at row `r`: the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- A maximum along the rows, at row `r`: the fold of `max` over the row's entries from the accumulator's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (Finset.fold max (Ideal.ofBits φ acc) · Finset.univ) (funext fun k => congrArg src (lift_row h r k)))

end Rows

/-! ## Column shapes -/

section Columns
variable {α : Type} {a b : Nat}

/-- A vector cast to a one-column matrix reads, at `(i, u)`, the vector at `i`. -/
theorem shapeCast_col_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast over `b` columns reads, at `(p, c)`, the column at `p`. -/
theorem broadcastTo_col_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## A matrix product into a zero accumulator, for each way the two operands are contracted -/

section Dot
variable {sl sr so : Shape} (d : DotDims sl sr so)

/-- On a kept axis of the left operand (no batch axes) the operand index is the result index's coordinate at
    that axis's position among the kept axes. -/
theorem lhsIdx_val_kept (hb : d.lhsBatch = []) {al : Fin sl.rank} (hn : al ∈ d.lhsNonContracting) {p : Nat}
    (hp : d.lhsNonContracting.idxOf al = p) (hpo : p < so.rank) (j : so.Idx) (q : d.contr.Idx) :
    (d.lhsIdx j q al).val = (j ⟨p, hpo⟩).val := by
  have hnb : al ∉ d.lhsBatch := by rw [hb]; exact List.not_mem_nil
  unfold DotDims.lhsIdx
  rw [dif_neg hnb, dif_pos hn]
  simp only [Fin.val_cast]
  have key : ∀ (x y : Nat) (hx : x < so.rank) (hy : y < so.rank), x = y → (j ⟨x, hx⟩).val = (j ⟨y, hy⟩).val :=
    fun x y hx hy h => by subst h; rfl
  exact key _ _ _ _ (by rw [hb, hp]; simp)

/-- On a kept axis of the right operand (no batch axes) the operand index is the result index's coordinate at
    that axis's position after the left operand's kept axes. -/
theorem rhsIdx_val_kept (hlb : d.lhsBatch = []) (hb : d.rhsBatch = []) {ar : Fin sr.rank} (hn : ar ∈ d.rhsNonContracting)
    {p : Nat} (hp : d.lhsNonContracting.length + d.rhsNonContracting.idxOf ar = p) (hpo : p < so.rank) (j : so.Idx)
    (q : d.contr.Idx) : (d.rhsIdx j q ar).val = (j ⟨p, hpo⟩).val := by
  have hnb : ar ∉ d.rhsBatch := by rw [hb]; exact List.not_mem_nil
  unfold DotDims.rhsIdx
  rw [dif_neg hnb, dif_pos hn]
  simp only [Fin.val_cast]
  have key : ∀ (x y : Nat) (hx : x < so.rank) (hy : y < so.rank), x = y → (j ⟨x, hx⟩).val = (j ⟨y, hy⟩).val :=
    fun x y hx hy h => by subst h; rfl
  exact key _ _ _ _ (by rw [hlb, ← hp]; simp)

end Dot

section Products
variable {m k n : Nat}

/-- Rows of the left operand against columns of the right: `(A·B)(i,c) = Σ_f A(i,f)·B(f,c)`. -/
theorem matmul_rowcol_apply (d : DotDims ⟨2, ![m, k]⟩ ⟨2, ![k, n]⟩ ⟨2, ![m, n]⟩)
    (hlb : d.lhsBatch = []) (hrb : d.rhsBatch = []) (hln : d.lhsNonContracting = [0]) (hrn : d.rhsNonContracting = [1])
    (hlc : d.lhsContracting = [1]) (hrc : d.rhsContracting = [0])
    (hr : d.contr.rank = 1) (hs : d.contr.size ⟨0, by omega⟩ = k) (prec : Option ContractPrecision)
    (A : FVec Ideal ⟨2, ![m, k]⟩ .f32) (B : FVec Ideal ⟨2, ![k, n]⟩ .f32) (i : Fin m) (c : Fin n) :
    matmul d prec A B (constant (F := Ideal) ⟨2, ![m, n]⟩ .f32 0x00000000#32) (ix2 i c)
      = ∑ f : Fin k, A (ix2 i f) * B (ix2 f c) := by
  show FloatOps.matmul d prec A B (constant (F := Ideal) ⟨2, ![m, n]⟩ .f32 0x00000000#32) (ix2 i c) = _
  rw [Ideal.matmul_constant_zero_apply, ← Equiv.sum_comp (contrEquiv1 d k hr hs).symm]
  refine Finset.sum_congr rfl fun f _ => ?_
  have hk := contrEquiv1_symm_val d k hr hs f
  have el : d.lhsIdx (ix2 i c) ((contrEquiv1 d k hr hs).symm f) = ix2 i f := funext fun ax => Fin.ext (by
    match ax with
    | ⟨0, _⟩ =>
      exact lhsIdx_val_kept d hlb (al := 0) (by rw [hln]; exact List.mem_singleton.mpr rfl) (p := 0)
        (by rw [hln]; rfl) Nat.zero_lt_two _ _
    | ⟨1, _⟩ => exact (d.lhsIdx_val_of_single hlc _ _).trans hk)
  have er : d.rhsIdx (ix2 i c) ((contrEquiv1 d k hr hs).symm f) = ix2 f c := funext fun ax => Fin.ext (by
    match ax with
    | ⟨0, _⟩ => exact (d.rhsIdx_val_of_single hrc _ _).trans hk
    | ⟨1, _⟩ =>
      exact rhsIdx_val_kept d hlb hrb (ar := 1) (by rw [hrn]; exact List.mem_singleton.mpr rfl) (p := 1)
        (by rw [hln, hrn]; rfl) Nat.one_lt_two _ _)
  rw [el, er]

/-- Rows of the left operand against rows of the right: `Σ_e A(i,e)·B(j,e)`. -/
theorem matmul_rowrow_apply (d : DotDims ⟨2, ![m, k]⟩ ⟨2, ![n, k]⟩ ⟨2, ![m, n]⟩)
    (hlb : d.lhsBatch = []) (hrb : d.rhsBatch = []) (hln : d.lhsNonContracting = [0]) (hrn : d.rhsNonContracting = [0])
    (hlc : d.lhsContracting = [1]) (hrc : d.rhsContracting = [1])
    (hr : d.contr.rank = 1) (hs : d.contr.size ⟨0, by omega⟩ = k) (prec : Option ContractPrecision)
    (A : FVec Ideal ⟨2, ![m, k]⟩ .f32) (B : FVec Ideal ⟨2, ![n, k]⟩ .f32) (i : Fin m) (j : Fin n) :
    matmul d prec A B (constant (F := Ideal) ⟨2, ![m, n]⟩ .f32 0x00000000#32) (ix2 i j)
      = ∑ e : Fin k, A (ix2 i e) * B (ix2 j e) := by
  show FloatOps.matmul d prec A B (constant (F := Ideal) ⟨2, ![m, n]⟩ .f32 0x00000000#32) (ix2 i j) = _
  rw [Ideal.matmul_constant_zero_apply, ← Equiv.sum_comp (contrEquiv1 d k hr hs).symm]
  refine Finset.sum_congr rfl fun e _ => ?_
  have hk := contrEquiv1_symm_val d k hr hs e
  have el : d.lhsIdx (ix2 i j) ((contrEquiv1 d k hr hs).symm e) = ix2 i e := funext fun ax => Fin.ext (by
    match ax with
    | ⟨0, _⟩ =>
      exact lhsIdx_val_kept d hlb (al := 0) (by rw [hln]; exact List.mem_singleton.mpr rfl) (p := 0)
        (by rw [hln]; rfl) Nat.zero_lt_two _ _
    | ⟨1, _⟩ => exact (d.lhsIdx_val_of_single hlc _ _).trans hk)
  have er : d.rhsIdx (ix2 i j) ((contrEquiv1 d k hr hs).symm e) = ix2 j e := funext fun ax => Fin.ext (by
    match ax with
    | ⟨0, _⟩ =>
      exact rhsIdx_val_kept d hlb hrb (ar := 0) (by rw [hrn]; exact List.mem_singleton.mpr rfl) (p := 1)
        (by rw [hln, hrn]; rfl) Nat.one_lt_two _ _
    | ⟨1, _⟩ => exact (d.rhsIdx_val_of_single hrc _ _).trans hk)
  rw [el, er]

/-- Columns of the left operand against columns of the right: `Σ_v A(v,i)·B(v,j)`. -/
theorem matmul_colcol_apply (d : DotDims ⟨2, ![k, m]⟩ ⟨2, ![k, n]⟩ ⟨2, ![m, n]⟩)
    (hlb : d.lhsBatch = []) (hrb : d.rhsBatch = []) (hln : d.lhsNonContracting = [1]) (hrn : d.rhsNonContracting = [1])
    (hlc : d.lhsContracting = [0]) (hrc : d.rhsContracting = [0])
    (hr : d.contr.rank = 1) (hs : d.contr.size ⟨0, by omega⟩ = k) (prec : Option ContractPrecision)
    (A : FVec Ideal ⟨2, ![k, m]⟩ .f32) (B : FVec Ideal ⟨2, ![k, n]⟩ .f32) (i : Fin m) (j : Fin n) :
    matmul d prec A B (constant (F := Ideal) ⟨2, ![m, n]⟩ .f32 0x00000000#32) (ix2 i j)
      = ∑ v : Fin k, A (ix2 v i) * B (ix2 v j) := by
  show FloatOps.matmul d prec A B (constant (F := Ideal) ⟨2, ![m, n]⟩ .f32 0x00000000#32) (ix2 i j) = _
  rw [Ideal.matmul_constant_zero_apply, ← Equiv.sum_comp (contrEquiv1 d k hr hs).symm]
  refine Finset.sum_congr rfl fun v _ => ?_
  have hk := contrEquiv1_symm_val d k hr hs v
  have el : d.lhsIdx (ix2 i j) ((contrEquiv1 d k hr hs).symm v) = ix2 v i := funext fun ax => Fin.ext (by
    match ax with
    | ⟨0, _⟩ => exact (d.lhsIdx_val_of_single hlc _ _).trans hk
    | ⟨1, _⟩ =>
      exact lhsIdx_val_kept d hlb (al := 1) (by rw [hln]; exact List.mem_singleton.mpr rfl) (p := 0)
        (by rw [hln]; rfl) Nat.zero_lt_two _ _)
  have er : d.rhsIdx (ix2 i j) ((contrEquiv1 d k hr hs).symm v) = ix2 v j := funext fun ax => Fin.ext (by
    match ax with
    | ⟨0, _⟩ => exact (d.rhsIdx_val_of_single hrc _ _).trans hk
    | ⟨1, _⟩ =>
      exact rhsIdx_val_kept d hlb hrb (ar := 1) (by rw [hrn]; exact List.mem_singleton.mpr rfl) (p := 1)
        (by rw [hln, hrn]; rfl) Nat.one_lt_two _ _)
  rw [el, er]

end Products

/-! ## The diagonal test and the float literals -/

section Words

/-- Row `g·256 + r` against column `j`, compared as 32-bit words that do not wrap: the select is the `if`. -/
theorem select_shifted_eq {α : Type} (g r j : Nat) (hrow : g * 256 + r < 2 ^ 32) (hj : j < 2 ^ 32) (x y : α) :
    Scalar.select (IntOp.cmpi .eq (IntOp.addi (Scalar.muli (BitVec.ofNat 32 g) 256#32) (BitVec.ofNat 32 r))
        (BitVec.ofNat 32 j)) x y = if g * 256 + r = j then x else y := by
  have h1 : IntOp.addi (Scalar.muli (BitVec.ofNat 32 g) 256#32) (BitVec.ofNat 32 r) = BitVec.ofNat 32 (g * 256 + r) := by
    show BitVec.ofNat 32 g * BitVec.ofNat 32 256 + BitVec.ofNat 32 r = _
    rw [BitVec.ofNat_add, BitVec.ofNat_mul]
  rw [h1]
  have h2 : IntOp.cmpi .eq (BitVec.ofNat 32 (g * 256 + r)) (BitVec.ofNat 32 j) = (1 : BitVec 1) ↔ g * 256 + r = j := by
    show BitVec.ofBool (BitVec.ofNat 32 (g * 256 + r) == BitVec.ofNat 32 j) = (1 : BitVec 1) ↔ _
    constructor
    · intro h
      have hb : (BitVec.ofNat 32 (g * 256 + r) == BitVec.ofNat 32 j) = true := by
        cases hc : (BitVec.ofNat 32 (g * 256 + r) == BitVec.ofNat 32 j)
        · rw [hc] at h; exact absurd h (by decide)
        · rfl
      have he := congrArg BitVec.toNat (eq_of_beq hb)
      rw [BitVec.toNat_ofNat, BitVec.toNat_ofNat, Nat.mod_eq_of_lt hrow, Nat.mod_eq_of_lt hj] at he
      exact he
    · intro h
      rw [h, beq_self_eq_true]
      rfl
  unfold Scalar.select
  by_cases h : g * 256 + r = j
  · rw [if_pos h, if_pos (h2.mpr h)]
  · rw [if_neg h, if_neg (mt h2.mp h)]

/-- The word `0x3F800000` is the number one. -/
theorem ofBits_one_f32 : Ideal.ofBits .f32 0x3F800000#32 = 1 := IdealRules.sign_bit.ideal_onePat .f32

/-- The word `0xFF800000` is `-∞`. -/
theorem ofBits_negInf_f32 : Ideal.ofBits .f32 0xFF800000#32 = ⊥ := by
  simp [Ideal.ofBits, Ideal.ieee]

end Words

/-! ## One on the shifted diagonal, and a row-wise log-softmax -/

section Diagonal
variable {a b : Nat}

/-- The select that puts one where row `g·256 + r` meets column `j` and keeps `X` elsewhere, read at `(r, j)`. -/
theorem select_diag_apply (g : Nat) (h0 : (⟨2, ![a, b]⟩ : Shape).Iotas .tc 32 [0])
    (h1 : (⟨2, ![a, b]⟩ : Shape).Iotas .tc 32 [1]) (X : FVec Ideal ⟨2, ![a, b]⟩ .f32) (r : Fin a) (j : Fin b)
    (hrow : g * 256 + r.val < 2 ^ 32) (hj : j.val < 2 ^ 32) :
    select (cmpi .eq (addi (broadcast ⟨2, ![a, b]⟩ (Scalar.muli (BitVec.ofNat 32 g) 256#32))
          (iota .tc ⟨2, ![a, b]⟩ 32 [0] h0)) (iota .tc ⟨2, ![a, b]⟩ 32 [1] h1))
        (broadcast ⟨2, ![a, b]⟩ (Scalar.ofBits (F := Ideal) .f32 0x3F800000#32)) X (ix2 r j)
      = if g * 256 + r.val = j.val then (1 : EReal) else X (ix2 r j) := by
  show Scalar.select (IntOp.cmpi .eq (IntOp.addi (Scalar.muli (BitVec.ofNat 32 g) 256#32)
        (iota .tc ⟨2, ![a, b]⟩ 32 [0] h0 (ix2 r j))) (iota .tc ⟨2, ![a, b]⟩ 32 [1] h1 (ix2 r j)))
      (Ideal.ofBits .f32 0x3F800000#32) (X (ix2 r j)) = _
  rw [iota_single_apply, iota_single_apply, ofBits_one_f32]
  exact select_shifted_eq g r.val j.val hrow hj 1 (X (ix2 r j))

/-- The row-wise log-softmax as the layer body spells it — the row maximum kept as a column, subtracted, the
    exponentials summed along the row, the logarithm of the sum kept as a column and subtracted — read at `(r, c)`:
    `(Y(r,c) − M) − log Σ_k exp (Y(r,k) − M)` with `M` the maximum of row `r` from `-∞`. -/
theorem logSoftmax_rows_apply (Y : FVec Ideal ⟨2, ![a, b]⟩ .f32)
    (hR : (⟨2, ![a, b]⟩ : Shape).Reduces [1] ⟨1, ![a]⟩) (hC : (⟨1, ![a]⟩ : Shape).ShapeCasts ⟨2, ![a, 1]⟩)
    (hB : (⟨2, ![a, 1]⟩ : Shape).Broadcasts ⟨2, ![a, b]⟩) (hφ : FKind.Formats .f32)
    (hmax : (0xFF800000#32 : BitVec 32) = FKind.maximumf.neutral .f32 hφ)
    (hadd : (0x00000000#32 : BitVec 32) = FKind.add.neutral .f32 hφ) (r : Fin a) (c : Fin b)
    (x : Fin b → EReal) (hx : ∀ k, Y (ix2 r k) = x k) :
    subf (subf Y (broadcastTo ⟨2, ![a, b]⟩ (shapeCast ⟨2, ![a, 1]⟩
            (multiReduction .maximumf [1] ⟨1, ![a]⟩ Y 0xFF800000#32 hR hφ hmax) hC) hB))
        (broadcastTo ⟨2, ![a, b]⟩ (log (shapeCast ⟨2, ![a, 1]⟩
            (multiReduction .add [1] ⟨1, ![a]⟩ (exp (subf Y (broadcastTo ⟨2, ![a, b]⟩ (shapeCast ⟨2, ![a, 1]⟩
                (multiReduction .maximumf [1] ⟨1, ![a]⟩ Y 0xFF800000#32 hR hφ hmax) hC) hB)))
              0x00000000#32 hR hφ hadd) hC)) hB) (ix2 r c)
      = (x c - (Finset.univ : Finset (Fin b)).fold max ⊥ x)
          - Ideal.log (∑ k : Fin b, Ideal.exp (x k - (Finset.univ : Finset (Fin b)).fold max ⊥ x)) := by
  have hx' : (fun k => Y (ix2 r k)) = x := funext hx
  have hM : ∀ k : Fin b, broadcastTo ⟨2, ![a, b]⟩ (shapeCast ⟨2, ![a, 1]⟩
        (multiReduction .maximumf [1] ⟨1, ![a]⟩ Y 0xFF800000#32 hR hφ hmax) hC) hB (ix2 r k)
      = (Finset.univ : Finset (Fin b)).fold max ⊥ x := fun k => by
    rw [broadcastTo_col_apply, shapeCast_col_apply, rowMax_apply, ofBits_negInf_f32, hx']
  show (Y (ix2 r c) - broadcastTo ⟨2, ![a, b]⟩ (shapeCast ⟨2, ![a, 1]⟩
          (multiReduction .maximumf [1] ⟨1, ![a]⟩ Y 0xFF800000#32 hR hφ hmax) hC) hB (ix2 r c))
        - broadcastTo ⟨2, ![a, b]⟩ (log (shapeCast ⟨2, ![a, 1]⟩
            (multiReduction .add [1] ⟨1, ![a]⟩ (exp (subf Y (broadcastTo ⟨2, ![a, b]⟩ (shapeCast ⟨2, ![a, 1]⟩
                (multiReduction .maximumf [1] ⟨1, ![a]⟩ Y 0xFF800000#32 hR hφ hmax) hC) hB)))
              0x00000000#32 hR hφ hadd) hC)) hB (ix2 r c) = _
  rw [hM c, broadcastTo_col_apply, hx c]
  show _ - Ideal.log (shapeCast ⟨2, ![a, 1]⟩
            (multiReduction .add [1] ⟨1, ![a]⟩ (exp (subf Y (broadcastTo ⟨2, ![a, b]⟩ (shapeCast ⟨2, ![a, 1]⟩
                (multiReduction .maximumf [1] ⟨1, ![a]⟩ Y 0xFF800000#32 hR hφ hmax) hC) hB)))
              0x00000000#32 hR hφ hadd) hC (ix2 r (0 : Fin 1))) = _
  rw [shapeCast_col_apply, rowSum_apply]
  refine congrArg (fun s => _ - Ideal.log s) (Finset.sum_congr rfl fun k _ => ?_)
  show Ideal.exp (Y (ix2 r k) - broadcastTo ⟨2, ![a, b]⟩ (shapeCast ⟨2, ![a, 1]⟩
          (multiReduction .maximumf [1] ⟨1, ![a]⟩ Y 0xFF800000#32 hR hφ hmax) hC) hB (ix2 r k)) = _
  rw [hM k, hx k]

end Diagonal

end Cert.KernelIdeal.Pay

end
-- ==== Proof.KernelIdeal.KValue.lean ====
/-
  The idealized kernel computes the specification. At the extended reals: the first scratch buffer is the
  features times the first weight; row k of the second is the first layer's result at k (computed at point
  k / 400 from the 400-row block that holds row k of the first propagation matrix); the output block of point
  t ≥ 25 is rows 400 (t − 25) .. of the log-softmax of the second propagation matrix times that result plus the
  second bias. The 25 output blocks of the second half tile the output array, so it ends holding the
  specification at every index.
-/
import proofs.«152889_g61306363183712_cont_9to1c4b_794_20_alg».proof.Proof.KernelIdeal.Frame
import proofs.«152889_g61306363183712_cont_9to1c4b_794_20_alg».proof.Proof.KernelIdeal.Blocks
import proofs.«152889_g61306363183712_cont_9to1c4b_794_20_alg».proof.Proof.Spec
import proofs.«152889_g61306363183712_cont_9to1c4b_794_20_alg».proof.Proof.LibMatrixAtIndex
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx Cert.KernelIdeal.Pay
open scoped BigOperators

variable (m : (ℓ : Loc nD τ sig) → Buf (Elt Ideal) ℓ) (ρ : Dev nD → PrngReg)

/-! ## The payloads at coordinates -/

theorem pay1_apply (v11 : FVec Ideal S10000x128 .f32) (v12 : FVec Ideal S128x16 .f32) (q : Fin 10000) (h : Fin 16) :
    k0_pay1 v11 v12 (ix2 q h) = ∑ f : Fin 128, v11 (ix2 q f) * v12 (ix2 f h) := by
  unfold k0_pay1
  refine (congrFun (shapeCast_self _ _) (ix2 q h)).trans ?_
  exact matmul_rowcol_apply (m := 10000) (k := 128) (n := 16) dot_S10000x128_S128x16_S10000x16_1_0_0_1_n_n rfl rfl rfl rfl rfl rfl rfl rfl none v11 v12 q h

/-- One row of (block of a propagation matrix) x (a 10000 x 16 matrix) + (bias row). -/
theorem affine_apply (v11 : FVec Ideal S1x400x10000 .f32) (v13 : FVec Ideal S10000x16 .f32) (v15 : FVec Ideal S1x16 .f32) (r : Fin 400) (h : Fin 16) :
    addf (F := Ideal) (matmul (F := Ideal) dot_S400x10000_S10000x16_S400x16_1_0_0_1_n_n none (shapeCast S400x10000 v11 shapeCasts_S1x400x10000_S400x10000) v13 (constant (F := Ideal) S400x16 .f32 0x00000000#32))
        (broadcastTo S400x16 (shapeCast S1x16 v15 shapeCasts_S1x16_S1x16) broadcasts_S1x16_S400x16) (ix2 r h)
      = (∑ q : Fin 10000, v11 (ix3 (0 : Fin 1) r q) * v13 (ix2 q h)) + v15 (ix2 (0 : Fin 1) h) := by
  refine (addf_apply _ _ _).trans ?_
  refine congrArg₂ (· + ·) ?_ ?_
  · refine (matmul_rowcol_apply (m := 400) (k := 10000) (n := 16) dot_S400x10000_S10000x16_S400x16_1_0_0_1_n_n rfl rfl rfl rfl rfl rfl rfl rfl none _ v13 r h).trans ?_
    exact Finset.sum_congr rfl fun q _ => congrArg (· * v13 (ix2 q h)) (shapeCast_1ab_ab_apply v11 _ r q)
  · exact (broadcastTo_1b_ab_apply _ _ r h).trans (congrFun (shapeCast_self v15 _) _)

theorem pay2_apply (v11 : FVec Ideal S1x400x10000 .f32) (v13 : FVec Ideal S10000x16 .f32) (v15 : FVec Ideal S1x16 .f32) (v21 : FVec Ideal S16x16 .f32)
    (r : Fin 400) (j : Fin 16) :
    k0_pay2 v11 v13 v15 v21 (ix2 r j)
      = ∑ h : Fin 16, max ((∑ q : Fin 10000, v11 (ix3 (0 : Fin 1) r q) * v13 (ix2 q h)) + v15 (ix2 (0 : Fin 1) h)) GcnSpec.zeroWord * v21 (ix2 h j) := by
  unfold k0_pay2
  refine (congrFun (shapeCast_self _ _) (ix2 r j)).trans ?_
  refine (matmul_rowcol_apply (m := 400) (k := 16) (n := 16) dot_S400x16_S16x16_S400x16_1_0_0_1_n_n rfl rfl rfl rfl rfl rfl rfl rfl none _ v21 r j).trans ?_
  refine Finset.sum_congr rfl fun h _ => congrArg (· * v21 (ix2 h j)) ?_
  refine (maximumf_apply _ _ _).trans ?_
  exact congrArg (max · GcnSpec.zeroWord) (affine_apply v11 v13 v15 r h)

theorem pay3_apply (v11 : FVec Ideal S1x400x10000 .f32) (v13 : FVec Ideal S10000x16 .f32) (v15 : FVec Ideal S1x16 .f32) (r : Fin 400) (j : Fin 16) :
    k0_pay3 (F := Ideal) v11 v13 v15 (ix2 r j)
      = GcnSpec.logSoftmax (fun k => (∑ q : Fin 10000, v11 (ix3 (0 : Fin 1) r q) * v13 (ix2 q k)) + v15 (ix2 (0 : Fin 1) k)) j := by
  unfold k0_pay3
  exact logSoftmax_rows_apply (a := 400) (b := 16) _ reduces_S400x16_S400 shapeCasts_S400_S400x1 broadcasts_S400x1_S400x16 (.inl rfl) rfl rfl r j _
    (fun k => affine_apply v11 v13 v15 r k)

/-! ## The argument arrays -/

abbrev aX (c : Dev nD) := m ((c : Thread nD τ).loc main_arg0)
abbrev aA (c : Dev nD) := m ((c : Thread nD τ).loc main_arg1)
abbrev aW1 (c : Dev nD) := m ((c : Thread nD τ).loc main_arg2)
abbrev aB1 (c : Dev nD) := m ((c : Thread nD τ).loc main_arg3)
abbrev aW2 (c : Dev nD) := m ((c : Thread nD τ).loc main_arg4)
abbrev aB2 (c : Dev nD) := m ((c : Thread nD τ).loc main_arg5)

/-! ## The scratch contents and the output blocks -/

theorem featW1_eq (c : Dev nD) (q : Fin 10000) (h : Fin 16) :
    featW1 m c (ix2 q h) = GcnSpec.featW1 (aX m c) (aW1 m c) q h := by
  unfold featW1
  rw [pay1_apply]
  unfold GcnSpec.featW1
  refine Finset.sum_congr rfl fun f _ => ?_
  rw [featAt_apply, w1At_apply, V_main_arg0, V_main_arg2]

/-- The point that computes row k of the first layer's result. -/
def ptOfRow (k : Fin 10000) : Fin cfg0.N := ⟨k.val / 400, by rw [N_eq]; have := k.isLt; omega⟩

theorem layer1_eq (c : Dev nD) (k : Fin 10000) (j : Fin 16) :
    layer1 m c (ix2 k j) = GcnSpec.layer1 (aX m c) (aA m c) (aW1 m c) (aB1 m c) (aW2 m c) k j := by
  show k0_pay2 (adjAt m c (ptOfRow k)) (featW1 m c) (b1At m c (ptOfRow k)) (w2At m c (ptOfRow k))
      (ix2 (⟨k.val % 400, Nat.mod_lt _ (by norm_num)⟩ : Fin 400) j) = _
  rw [pay2_apply]
  unfold GcnSpec.layer1 GcnSpec.hidden
  refine Finset.sum_congr rfl fun h _ => ?_
  rw [w2At_apply, V_main_arg4, b1At_apply, V_bias1, shapeCast_a_1a_apply]
  refine congrArg (fun s => max (s + aB1 m c (ix1 h)) GcnSpec.zeroWord * aW2 m c (ix2 h j)) ?_
  refine Finset.sum_congr rfl fun q _ => ?_
  rw [adjAt_apply, V_main_arg1, featW1_eq]
  refine congrArg₂ _ (congrArg _ ?_) rfl
  have hk := k.isLt
  exact funext fun a => Fin.ext (by
    match a with
    | ⟨0, _⟩ => show k.val / 400 / 25 = 0; omega
    | ⟨1, _⟩ => show 400 * (k.val / 400 % 25) + k.val % 400 = k.val; omega
    | ⟨2, _⟩ => rfl)

/-- The row of the output a local row of point t's block is. -/
def rowOf (t : Fin cfg0.N) (h25 : 25 ≤ t.val) (r : Fin 400) : Fin 10000 :=
  ⟨400 * (t.val - 25) + r.val, by have := lt_of_lt_of_eq t.isLt N_eq; have := r.isLt; omega⟩

theorem outAt_eq (c : Dev nD) (t : Fin cfg0.N) (h25 : 25 ≤ t.val) (r : Fin 400) (j : Fin 16) :
    outAt m c t (ix2 r j) = GcnSpec.out (aX m c) (aA m c) (aW1 m c) (aB1 m c) (aW2 m c) (aB2 m c) (rowOf t h25 r) j := by
  unfold outAt
  rw [pay3_apply]
  unfold GcnSpec.out
  refine congrArg (fun g => GcnSpec.logSoftmax g j) (funext fun k => ?_)
  unfold GcnSpec.logit
  rw [b2At_apply, V_bias2, shapeCast_a_1a_apply]
  refine congrArg (· + aB2 m c (ix1 k)) (Finset.sum_congr rfl fun q _ => ?_)
  rw [adjAt_apply, V_main_arg1, layer1_eq]
  refine congrArg₂ _ (congrArg _ ?_) rfl
  have ht : t.val < 50 := lt_of_lt_of_eq t.isLt N_eq
  exact funext fun a => Fin.ext (by
    match a with
    | ⟨0, _⟩ => show t.val / 25 = 1; omega
    | ⟨1, _⟩ => show 400 * (t.val % 25) + r.val = 400 * (t.val - 25) + r.val; omega
    | ⟨2, _⟩ => rfl)

/-! ## From the blocks to the array -/

/-- The whole output array: the specification at every index. -/
def outArr (c : Dev nD) : S10000x16.Idx → Elt Ideal .f32 := fun y =>
  GcnSpec.out (aX m c) (aA m c) (aW1 m c) (aB1 m c) (aW2 m c) (aB2 m c) ⟨(y 0).val, idx2_lt0 y⟩ ⟨(y 1).val, idx2_lt1 y⟩

/-- What a point of the second half writes back is its block of the whole array. -/
theorem flushed_eq (c : Dev nD) (t : Fin cfg0.N) (hf : (cfg0.win 6).flush t = true) :
    (dats m 0 c).flushed 6 t = ((cfg0.win 6).blk t).view.read (Elt Ideal) (outArr m c) := by
  have h25 : 25 ≤ t.val := (flush6_iff t).mp hf
  show (cfg0.win 6).cut (grid0.coords t) ((dats m 0 c).after 6 t) = _
  rw [after6]
  funext y
  obtain ⟨r, j, rfl⟩ : ∃ (r : Fin 400) (j : Fin 16), y = ix2 r j := ⟨y 0, y 1, eq_ix2 y⟩
  show outAt m c t (ix2 r j) = outArr m c (((cfg0.win 6).blk t).view.emb (ix2 r j))
  rw [outAt_eq m c t h25]
  unfold outArr
  have e0 := index6 t h25 0
  have e1 := index6 t h25 1
  refine congrArg₂ (GcnSpec.out (aX m c) (aA m c) (aW1 m c) (aB1 m c) (aW2 m c) (aB2 m c)) (Fin.ext ?_) (Fin.ext ?_)
  · show 400 * (t.val - 25) + r.val = win0_6.index t (0 : Fin 2) * 400 + 1 * r.val
    have : win0_6.index t (0 : Fin 2) = t.val - 25 := e0
    omega
  · show j.val = win0_6.index t (1 : Fin 2) * 16 + 1 * j.val
    have : win0_6.index t (1 : Fin 2) = 0 := e1
    omega

/-- An index of the output array is in point t's block iff each coordinate is in the block's range. -/
theorem mem_blk (t : Fin cfg0.N) (i : S10000x16.Idx) :
    i ∈ ((cfg0.win 6).blk t).view.set ↔ ∀ a : Fin 2, win0_6.index t a * S400x16.size a ≤ (i a).val ∧ (i a).val < win0_6.index t a * S400x16.size a + S400x16.size a := by
  show i ∈ ((View.whole main_v0).slice (win0_6.rect t)).set ↔ _
  rw [View.set_slice_whole, Rect.mem_set_unit]
  exact Iff.rfl

/-- Every index of the output array lies in the block of the point 25 + (its row) / 400. -/
theorem cover (i : S10000x16.Idx) : ∃ t : Fin cfg0.N, (cfg0.win 6).flush t = true ∧ i ∈ ((cfg0.win 6).blk t).view.set := by
  have hi0 := idx2_lt0 i
  have hi1 := idx2_lt1 i
  let t : Fin cfg0.N := ⟨25 + (i 0).val / 400, by rw [N_eq]; omega⟩
  have h25 : 25 ≤ t.val := Nat.le_add_right _ _
  refine ⟨t, (flush6_iff t).mpr h25, ?_⟩
  rw [mem_blk]
  have e0 : win0_6.index t (0 : Fin 2) = t.val - 25 := index6 t h25 0
  have e1 : win0_6.index t (1 : Fin 2) = 0 := index6 t h25 1
  have htv : t.val = 25 + (i 0).val / 400 := rfl
  intro a
  match a with
  | ⟨0, _⟩ => show win0_6.index t (0 : Fin 2) * 400 ≤ (i 0).val ∧ (i 0).val < win0_6.index t (0 : Fin 2) * 400 + 400; omega
  | ⟨1, _⟩ => show win0_6.index t (1 : Fin 2) * 16 ≤ (i 1).val ∧ (i 1).val < win0_6.index t (1 : Fin 2) * 16 + 16; omega

/-- The output array after the run. -/
theorem final (c : Dev nD) : (dats m 0 c).arrAt 6 cfg0.N = outArr m c :=
  (dats m 0 c).arrAt_eq_of_cover 6 (outArr m c) (fun t hf => flushed_eq m c t hf) cover

/-- The run, read: the output array ends at the specification, the arguments unchanged. -/
theorem value_run : θ_run defs (onTc (τ := τ) (main (F := Ideal))) ⟨m, fun _ => 0, ρ⟩ fun r => ∀ c : Dev nD,
    r.2.mem ((c.tc : Thread nD τ).loc main_v0) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h c).1 6).trans (final m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩) (run_main m ρ)

end Cert.KernelIdeal.Hand

end
-- ==== Proof.RefValue.lean ====
/-
  The reference program computes the specification: each of its stages, read at coordinates, is the
  specification's stage. The contractions are sums over the whole contracted axis, the two slices of the
  stacked propagation matrices are its two layers, the biases are broadcast along the rows, the row maximum
  is the fold of max from −∞ (taking the maximum with −∞ once more changes nothing), the row sum starts from
  the zero word's value 0.
-/
import proofs.«152889_g61306363183712_cont_9to1c4b_794_20_alg».proof.Proof.RefRead
import proofs.«152889_g61306363183712_cont_9to1c4b_794_20_alg».proof.Proof.Spec
import proofs.«152889_g61306363183712_cont_9to1c4b_794_20_alg».proof.Proof.LibMatrixAtIndex
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 : (⟨S10000x128, .f32⟩ : BufTy).Contents (Elt Ideal)) (x1 : (⟨S2x10000x10000, .f32⟩ : BufTy).Contents (Elt Ideal))
  (x2 : (⟨S128x16, .f32⟩ : BufTy).Contents (Elt Ideal)) (x3 : (⟨S16, .f32⟩ : BufTy).Contents (Elt Ideal))
  (x4 : (⟨S16x16, .f32⟩ : BufTy).Contents (Elt Ideal)) (x5 : (⟨S16, .f32⟩ : BufTy).Contents (Elt Ideal))

theorem featW1_eq (q : Fin 10000) (h : Fin 16) :
    val_main_v0 (F := Ideal) x0 x2 (ix2 q h) = GcnSpec.featW1 x0 x2 q h := by
  rw [val_main_v0_apply]
  unfold GcnSpec.featW1
  exact Finset.sum_congr rfl fun f _ => congrArg₂ (· * ·) (congrArg x0 (funext fun a => Fin.ext (by match a with | ⟨0, _⟩ => rfl | ⟨1, _⟩ => rfl))) (congrArg x2 (funext fun a => Fin.ext (by match a with | ⟨0, _⟩ => rfl | ⟨1, _⟩ => rfl)))

/-- The first slice of the stacked matrices, with its unit axis dropped, is the first layer's matrix. -/
theorem adj0_eq (k q : Fin 10000) : val_main_v2 (F := Ideal) x1 (ix2 k q) = x1 (ix3 (0 : Fin 2) k q) := by
  rw [val_main_v2_apply, val_main_v1_apply]
  exact congrArg x1 (funext fun a => Fin.ext (by
    match a with
    | ⟨0, _⟩ => rfl
    | ⟨1, _⟩ => show (k.val * 10000 + q.val) / 10000 % 10000 = k.val; have := k.isLt; have := q.isLt; omega
    | ⟨2, _⟩ => show (k.val * 10000 + q.val) % 10000 = q.val; have := q.isLt; omega))

/-- The second slice is the second layer's matrix. -/
theorem adj1_eq (k q : Fin 10000) : val_main_v11 (F := Ideal) x1 (ix2 k q) = x1 (ix3 (1 : Fin 2) k q) := by
  rw [val_main_v11_apply, val_main_v10_apply]
  exact congrArg x1 (funext fun a => Fin.ext (by
    match a with
    | ⟨0, _⟩ => rfl
    | ⟨1, _⟩ => show (k.val * 10000 + q.val) / 10000 % 10000 = k.val; have := k.isLt; have := q.isLt; omega
    | ⟨2, _⟩ => show (k.val * 10000 + q.val) % 10000 = q.val; have := q.isLt; omega))

theorem prod1_eq (k : Fin 10000) (h : Fin 16) :
    val_main_v3 (F := Ideal) x0 x1 x2 (ix2 k h) = ∑ q : Fin 10000, x1 (ix3 (0 : Fin 2) k q) * GcnSpec.featW1 x0 x2 q h := by
  rw [val_main_v3_apply]
  refine Finset.sum_congr rfl fun q _ => ?_
  rw [show lidx_main_v3 (ix2 k h) q = ix2 k q from (funext fun a => Fin.ext (by match a with | ⟨0, _⟩ => rfl | ⟨1, _⟩ => rfl)), show ridx_main_v3 (ix2 k h) q = ix2 q h from (funext fun a => Fin.ext (by match a with | ⟨0, _⟩ => rfl | ⟨1, _⟩ => rfl)),
    adj0_eq, featW1_eq]

theorem bias1_eq (k : Fin 10000) (h : Fin 16) : val_main_v5 (F := Ideal) x3 (ix2 k h) = x3 (ix1 h) := by
  rw [val_main_v5_apply, val_main_v4_apply]
  exact congrArg x3 (funext fun a => Fin.ext (by match a with | ⟨0, _⟩ => rfl))

theorem hidden_eq (k : Fin 10000) (h : Fin 16) :
    val_main_v8 (F := Ideal) x0 x1 x2 x3 (ix2 k h) = GcnSpec.hidden x0 x1 x2 x3 k h := by
  rw [val_main_v8_apply, val_main_v6_apply, prod1_eq, bias1_eq, val_main_v7_apply, val_main_cst_apply]
  rfl

theorem layer1_eq (k : Fin 10000) (j : Fin 16) :
    val_main_v9 (F := Ideal) x0 x1 x2 x3 x4 (ix2 k j) = GcnSpec.layer1 x0 x1 x2 x3 x4 k j := by
  rw [val_main_v9_apply]
  unfold GcnSpec.layer1
  refine Finset.sum_congr rfl fun h _ => ?_
  rw [show lidx_main_v9 (ix2 k j) h = ix2 k h from (funext fun a => Fin.ext (by match a with | ⟨0, _⟩ => rfl | ⟨1, _⟩ => rfl)), show ridx_main_v9 (ix2 k j) h = ix2 h j from (funext fun a => Fin.ext (by match a with | ⟨0, _⟩ => rfl | ⟨1, _⟩ => rfl)), hidden_eq]

theorem logit_eq (r : Fin 10000) (j : Fin 16) :
    val_main_v15 (F := Ideal) x0 x1 x2 x3 x4 x5 (ix2 r j) = GcnSpec.logit x0 x1 x2 x3 x4 x5 r j := by
  rw [val_main_v15_apply, val_main_v12_apply, val_main_v14_apply, val_main_v13_apply]
  unfold GcnSpec.logit
  refine congrArg₂ (· + ·) (Finset.sum_congr rfl fun k _ => ?_) (congrArg x5 (funext fun a => Fin.ext (by match a with | ⟨0, _⟩ => rfl)))
  rw [show lidx_main_v12 (ix2 r j) k = ix2 r k from (funext fun a => Fin.ext (by match a with | ⟨0, _⟩ => rfl | ⟨1, _⟩ => rfl)), show ridx_main_v12 (ix2 r j) k = ix2 k j from (funext fun a => Fin.ext (by match a with | ⟨0, _⟩ => rfl | ⟨1, _⟩ => rfl)),
    adj1_eq, layer1_eq]

/-- The host's maximum over a row, from −∞: the fold of max over the row's logits. -/
theorem rowMax_eq (hR : S10000x16.Reduces [1] S10000) (r : Fin 10000) :
    val_main_call0_v0 (F := Ideal) x0 x1 x2 x3 x4 x5 (ix1 r)
      = (Finset.univ : Finset (Fin 16)).fold max ⊥ (GcnSpec.logit x0 x1 x2 x3 x4 x5 r) := by
  unfold val_main_call0_v0
  rw [Host.reduce_eq_fold_single FloatOps.maximumf _ _ reducesTo_S10000x16_S10000_d1 hR h_S_]
  have hf : (val_main_v15 (F := Ideal) x0 x1 x2 x3 x4 x5 ∘ hR.lift (ix1 r)) = GcnSpec.logit x0 x1 x2 x3 x4 x5 r :=
    funext fun k => (congrArg (val_main_v15 (F := Ideal) x0 x1 x2 x3 x4 x5) (Cert.KernelIdeal.Pay.lift_row hR r k)).trans (logit_eq x0 x1 x2 x3 x4 x5 r k)
  show (Finset.univ : Finset (Fin 16)).fold max (Ideal.ofBits .f32 0xFF800000#32) (val_main_v15 (F := Ideal) x0 x1 x2 x3 x4 x5 ∘ hR.lift (ix1 r)) = _
  rw [Cert.KernelIdeal.Pay.ofBits_negInf_f32, hf]
  rfl

/-- A logit minus its row's maximum, as the reference forms it. -/
theorem shifted_eq (hR : S10000x16.Reduces [1] S10000) (r : Fin 10000) (k : Fin 16) :
    val_main_call0_v5 (F := Ideal) x0 x1 x2 x3 x4 x5 (ix2 r k)
      = GcnSpec.logit x0 x1 x2 x3 x4 x5 r k - (Finset.univ : Finset (Fin 16)).fold max ⊥ (GcnSpec.logit x0 x1 x2 x3 x4 x5 r) := by
  rw [val_main_call0_v5_apply, val_main_call0_v4_apply, val_main_call0_v3_apply, val_main_call0_v2_apply,
    val_main_call0_v1_apply, val_main_call0_cst_0_apply, logit_eq,
    show idx_main_call0_v3 (idx_main_call0_v4 (ix2 r k)) = ix1 r from (funext fun a => Fin.ext (by match a with | ⟨0, _⟩ => rfl)), rowMax_eq x0 x1 x2 x3 x4 x5 hR]
  show _ - max (Ideal.ofBits .f32 0xFF800000#32) _ = _
  rw [Cert.KernelIdeal.Pay.ofBits_negInf_f32, max_eq_right bot_le]

/-- THE REFERENCE IS THE SPECIFICATION, element by element. -/
theorem ref_eq (hR : S10000x16.Reduces [1] S10000) (r : Fin 10000) (j : Fin 16) :
    val_main_v16 (F := Ideal) x0 x1 x2 x3 x4 x5 (ix2 r j) = GcnSpec.out x0 x1 x2 x3 x4 x5 r j := by
  rw [val_main_v16_apply, shifted_eq x0 x1 x2 x3 x4 x5 hR, val_main_call0_v10_apply, val_main_call0_v9_apply,
    val_main_call0_v8_apply, val_main_call0_v7_apply, val_main_call0_cst_1_apply]
  unfold GcnSpec.out GcnSpec.logSoftmax
  show _ - Ideal.log (Ideal.ofBits .f32 0x00000000#32 + _) = _
  rw [Ideal.ofBits_zero_f32, zero_add]
  refine congrArg (fun s => _ - Ideal.log s) (Finset.sum_congr rfl fun k _ => ?_)
  rw [val_main_call0_v6_apply,
    show idx_main_call0_v7 (idx_main_call0_v8 (idx_main_call0_v10 (ix2 r j))) k = ix2 r k from (funext fun a => Fin.ext (by match a with | ⟨0, _⟩ => rfl | ⟨1, _⟩ => rfl)),
    shifted_eq x0 x1 x2 x3 x4 x5 hR]
  rfl

end Cert.ReferenceIdeal.RefValue

end
-- ==== Proof.lean ====
/-
  A two-layer graph convolution with a row-wise log-softmax, computed by one kernel launch on a grid of
  2 x 25 points, against the same network written with whole-matrix operations.

  The kernel forms (features x first weight) once, at its first point, in a scratch buffer; in the first
  half of the grid each point takes 400 whole rows of the first propagation matrix, multiplies them by
  that product, adds the first bias, rectifies, multiplies by the second weight and stores the 400 rows of
  the first layer's result into a second scratch buffer; in the second half each point takes 400 whole rows
  of the second propagation matrix, multiplies them by the completed second scratch buffer, adds the second
  bias and writes the rows' log-softmax to its output block. Every contraction runs over a whole axis at
  both programs, a row of a product depends only on that row of the left factor, and the log-softmax is taken
  row by row: so both programs are one function of the arguments, element by element, on the extended reals,
  with no rearrangement of any sum and no use of the inputs' finiteness.

  The frames: each program terminates without a fault and leaves its arguments as they were. For the two
  kernel programs this is the run through the 50 points with the two scratch buffers' contents carried as an
  invariant; for the reference it is its run with the result dropped. The idealized kernel is the kernel's own
  text read at the extended reals (no operation was rewritten).
-/
import proofs.«152889_g61306363183712_cont_9to1c4b_794_20_alg».proof.Defs
import proofs.«152889_g61306363183712_cont_9to1c4b_794_20_alg».proof.Proof.Gen.Kernel
import proofs.«152889_g61306363183712_cont_9to1c4b_794_20_alg».proof.Proof.Gen.KernelIdeal
import proofs.«152889_g61306363183712_cont_9to1c4b_794_20_alg».proof.Proof.Gen.ReferenceIdeal
import proofs.«152889_g61306363183712_cont_9to1c4b_794_20_alg».proof.Proof.Gen.Pre_finite_inputs
import proofs.«152889_g61306363183712_cont_9to1c4b_794_20_alg».proof.Proof.Kernel.Frame
import proofs.«152889_g61306363183712_cont_9to1c4b_794_20_alg».proof.Proof.KernelIdeal.KValue
import proofs.«152889_g61306363183712_cont_9to1c4b_794_20_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel terminates, faults nowhere and leaves its arguments unchanged. -/
theorem frame_kernel : Cert.frame_Kernel := fun m ρ _ => Cert.Kernel.Hand.frame m ρ

/-- So does the kernel read at the extended reals. -/
theorem frame_kernelIdeal : Cert.frame_KernelIdeal := fun m ρ _ => Cert.KernelIdeal.Hand.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- On the extended reals, from memories that agree on the arguments, both programs end with the
    specification's value at every index of the result. -/
theorem algebraic : Cert.algebraic_KernelIdeal_ReferenceIdeal := by
  intro m ρ m' ρ' _ hagree
  refine ⟨fun c => Cert.KernelIdeal.Hand.outArr m c, Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq]
  funext y
  obtain ⟨r, j, rfl⟩ : ∃ (r : Fin 10000) (j : Fin 16), y = ix2 r j := ⟨y 0, y 1, eq_ix2 y⟩
  rw [Cert.ReferenceIdeal.RefValue.ref_eq _ _ _ _ _ _ (by decide) r j,
    (hagree c).1, (hagree c).2.1, (hagree c).2.2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
